-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096 : S_.BroadcastsInDim S4096 (![] : Fin 0 → Fin S4096.rank)
  reducesTo_S4096_S_d0 : S4096.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4096x128 .f32) (main_arg1 : FVec F S2048x2048 .f32) (main_arg2 : FVec F S4096 .f32) (main_arg3 : FVec F S64x128 .f32) (main_arg4 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_v13 main_v16
-- ==== Kernel.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S128x64 : Shape := ⟨2, ![128, 64]⟩
abbrev S1x64 : Shape := ⟨2, ![1, 64]⟩
abbrev S2048x64 : Shape := ⟨2, ![2048, 64]⟩
abbrev S64x2048 : Shape := ⟨2, ![64, 2048]⟩
abbrev S4096x64 : Shape := ⟨2, ![4096, 64]⟩
abbrev S2048 : Shape := ⟨1, ![2048]⟩
abbrev S2048x1 : Shape := ⟨2, ![2048, 1]⟩
abbrev S512x2048 : Shape := ⟨2, ![512, 2048]⟩
abbrev S64x512 : Shape := ⟨2, ![64, 512]⟩
abbrev S512x1 : Shape := ⟨2, ![512, 1]⟩
abbrev S512x64 : Shape := ⟨2, ![512, 64]⟩

abbrev nBuf : Space → Nat
  | .hbm => 16
  | .vmem => 17
  | .smem => 0
  | _ => 0

abbrev bufTy : (tb : Table) → Fin (tcTables nBuf tb) → BufTy
  | .hbm, ⟨0, _⟩ => ⟨S4096x128, .f32⟩
  | .hbm, ⟨1, _⟩ => ⟨S2048x2048, .f32⟩
  | .hbm, ⟨2, _⟩ => ⟨S4096, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S1x64, .f32⟩
  | .hbm, ⟨7, _⟩ => ⟨S2048x64, .bf16⟩
  | .hbm, ⟨8, _⟩ => ⟨S64x2048, .bf16⟩
  | .hbm, ⟨9, _⟩ => ⟨S2048, .f32⟩
  | .hbm, ⟨10, _⟩ => ⟨S2048x1, .f32⟩
  | .hbm, ⟨11, _⟩ => ⟨S2048, .f32⟩
  | .hbm, ⟨12, _⟩ => ⟨S2048x1, .f32⟩
  | .hbm, ⟨13, _⟩ => ⟨S2048x64, .f32⟩
  | .hbm, ⟨14, _⟩ => ⟨S2048x64, .f32⟩
  | .hbm, ⟨15, _⟩ => ⟨S4096x64, .f32⟩
  | .local _ .vmem, ⟨0, _⟩ => ⟨S4096x128, .f32⟩
  | .local _ .vmem, ⟨1, _⟩ => ⟨S128x64, .f32⟩
  | .local _ .vmem, ⟨2, _⟩ => ⟨S1x64, .f32⟩
  | .local _ .vmem, ⟨3, _⟩ => ⟨S2048x64, .bf16⟩
  | .local _ .vmem, ⟨4, _⟩ => ⟨S64x2048, .bf16⟩
  | .local _ .vmem, ⟨5, _⟩ => ⟨S512x2048, .f32⟩
  | .local _ .vmem, ⟨6, _⟩ => ⟨S512x2048, .f32⟩
  | .local _ .vmem, ⟨7, _⟩ => ⟨S64x512, .bf16⟩
  | .local _ .vmem, ⟨8, _⟩ => ⟨S64x512, .bf16⟩
  | .local _ .vmem, ⟨9, _⟩ => ⟨S2048x64, .bf16⟩
  | .local _ .vmem, ⟨10, _⟩ => ⟨S512x1, .f32⟩
  | .local _ .vmem, ⟨11, _⟩ => ⟨S512x1, .f32⟩
  | .local _ .vmem, ⟨12, _⟩ => ⟨S2048x1, .f32⟩
  | .local _ .vmem, ⟨13, _⟩ => ⟨S512x64, .f32⟩
  | .local _ .vmem, ⟨14, _⟩ => ⟨S512x64, .f32⟩
  | .local _ .vmem, ⟨15, _⟩ => ⟨S2048x64, .f32⟩
  | .local _ .vmem, ⟨16, _⟩ => ⟨S64x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![4], ![false]⟩

def k1_cond3 (i : grid1.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_13 : BitVec 32 := 0#32
  let v21 : BitVec 1 := Scalar.cmpi .ne v20 c0_i32_13
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  transposes_S64x128_S128x64_1_0 : S64x128.Transposes [1, 0] S128x64
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  slices_S4096x64_o2048_0_S2048x64 : S4096x64.Slices ![2048, 0] S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  slices_S4096x64_o0_0_S2048x64 : S4096x64.Slices ![0, 0] S2048x64
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  packedbf16_S64x2048_S64x2048_0_0 : (Rect.unit (s := S64x2048) ![0, 0] S64x2048.size inb_S64x2048_S64x2048_0_0).PackedRows (EltTy.packing .bf16)
  slices_S4096_S2048_0 : S4096.Slices ![0] S2048
  shapeCasts_S2048_S2048x1 : S2048.ShapeCasts S2048x1
  slices_S4096_S2048_2048 : S4096.Slices ![2048] S2048
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S2048x64_S2048x64 : S2048x64.ShapeCasts S2048x64
  broadcasts_S512x1_S512x64 : S512x1.Broadcasts S512x64
  inb_S512x64_S512x64_0_0 : ∀ a, (![0, 0] : Fin 2 → Nat) a + S512x64.size a ≤ S512x64.size a
  h_S512x64 : 0 < S512x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x2048_S64x2048 : S64x2048.ShapeCasts S64x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S64x2048_p1_0_S2048x64 : S64x2048.Transposes [1, 0] S2048x64
  broadcasts_S2048x1_S2048x64 : S2048x1.Broadcasts S2048x64
  concatenates_S2048x64_S2048x64_S4096x64_d0 : Shape.Concatenates [S2048x64, S2048x64] S4096x64 0
  dot_S4096x128_S128x64_S4096x64_1_0_0_1_n_n_wf : DotDims.WF S4096x128 S128x64 S4096x64 [1] [0] [0] [1] [] []
  dot_S512x2048_S2048x64_S512x64_1_0_0_1_n_n_wf : DotDims.WF S512x2048 S2048x64 S512x64 [1] [0] [0] [1] [] []
  dot_S64x512_S512x2048_S64x2048_1_0_0_1_n_n_wf : DotDims.WF S64x512 S512x2048 S64x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x2048.size a
  hwx1_1 : ∀ i : grid1.Coords, EltTy.bits .bf16 = 32 ∨ (Rect.block (s := S64x2048) S64x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .bf16 = 32 ∨ (Rect.block (s := S2048x64) S2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S2048x1.size a
  hwx1_4 : ∀ i : grid1.Coords, EltTy.bits .f32 = 32 ∨ (Rect.block (s := S2048x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S2048x64.size a
  hwx1_5 : ∀ i : grid1.Coords, EltTy.bits .f32 = 32 ∨ (Rect.block (s := S2048x64) S512x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S2048x64.size a
  hwx1_6 : ∀ i : grid1.Coords, EltTy.bits .f32 = 32 ∨ (Rect.block (s := S2048x64) S2048x64.size (cc1_transform_6 i) (hinb1_6 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2_0) true false (stage0_3 0) (sem0_3 0) (Memref.isWhole_whole _) (hstage0_3 0)

abbrev win0_4 : Pipeline.Window sig grid0 :=
  Pipeline.Window.whole (Memref.whole main_v2_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S2048x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S512x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S2048x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond3 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S2048x2048 : Shape := ⟨2, ![2048, 2048]⟩
abbrev S4096 : Shape := ⟨1, ![4096]⟩
abbrev S64x128 : Shape := ⟨2, ![64, 128]⟩
abbrev S64 : Shape := ⟨1, ![64]⟩
abbrev S_ : Shape := ⟨0, ![]⟩
abbrev S2048x4096 : Shape := ⟨2, ![2048, 4096]⟩
abbrev S4096x4096 : Shape := ⟨2, ![4096, 4096]⟩
abbrev S4096x1 : Shape := ⟨2, ![4096, 1]⟩
abbrev S128x64 : Shape := ⟨2, ![128, 64]⟩
abbrev S4096x64 : Shape := ⟨2, ![4096, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2048x2048, .f32⟩
  | .hbm, ⟨2, _⟩ => ⟨S4096, .f32⟩
  | .hbm, ⟨3, _⟩ => ⟨S64x128, .f32⟩
  | .hbm, ⟨4, _⟩ => ⟨S64, .f32⟩
  | .hbm, ⟨5, _⟩ => ⟨S_, .f32⟩
  | .hbm, ⟨6, _⟩ => ⟨S2048x2048, .f32⟩
  | .hbm, ⟨7, _⟩ => ⟨S2048x4096, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x1, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S128x64, .f32⟩
  | .hbm, ⟨28, _⟩ => ⟨S4096x64, .f32⟩
  | .hbm, ⟨29, _⟩ => ⟨S1x64, .f32⟩
  | .hbm, ⟨30, _⟩ => ⟨S4096x64, .f32⟩
  | .hbm, ⟨31, _⟩ => ⟨S4096x64, .f32⟩
  | .hbm, ⟨32, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  concatenates_S2048x2048_S2048x2048_S2048x4096_d1 : Shape.Concatenates [S2048x2048, S2048x2048] S2048x4096 1
  transposes_S2048x2048_S2048x2048_1_0 : S2048x2048.Transposes [1, 0] S2048x2048
  concatenates_S2048x4096_S2048x4096_S4096x4096_d0 : Shape.Concatenates [S2048x4096, S2048x4096] S4096x4096 0
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x4096_S4096x4096_1_0_0_1_n_n_wf : DotDims.WF S4096x4096 S4096x4096 S4096x4096 [1] [0] [0] [1] [] []
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Reg0.lean ====
import proofs.«130676_g11785390260513_cont_main3_35_7_alg».proof.Proof.Gen.Kernel.Launch
import proofs.«130676_g11785390260513_cont_main3_35_7_alg».proof.Proof.Gen.Kernel.Skeleton
import proofs.«130676_g11785390260513_cont_main3_35_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of @main (the gridless call computing the support matrix): the body's half of the frame proof,
    at any float instance. The call has five windows, each one whole-array block at its single point: the
    inputs x [4096,128], Wt [128,64], b [1,64] and the outputs sup2 [2048,64], sup1t [64,2048]. The body reads
    the three inputs whole, then writes each output whole with one store; so after the body each output's
    staging buffer holds the store's payload at the input blocks. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4096x128 := Rect.unit (s := S4096x128) ![0, 0] S4096x128.size inb_S4096x128_S4096x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S2048x64 := Rect.unit (s := S2048x64) ![0, 0] S2048x64.size inb_S2048x64_S2048x64_0_0
abbrev r0_4 : Rect S64x2048 := Rect.unit (s := S64x2048) ![0, 0] S64x2048.size inb_S64x2048_S64x2048_0_0

/-! ## What the body leaves in each output window's buffer -/

/-- Window 3's staging buffer after the body, from the input windows' blocks: its one store as a piece. -/
def out0_3 (x0 : Vec F S4096x128 .f32) (x1 : Vec F S128x64 .f32) (x2 : Vec F S1x64 .f32) : Vec F S2048x64 .bf16 :=
  View.canon [⟨r0_3, k0_pay2 (View.ld x0 r0_0) (View.ld x1 r0_1) (View.ld x2 r0_2)⟩]

/-- Window 4's staging buffer after the body, from the input windows' blocks: its one store as a piece. -/
def out0_4 (x0 : Vec F S4096x128 .f32) (x1 : Vec F S128x64 .f32) (x2 : Vec F S1x64 .f32) : Vec F S64x2048 .bf16 :=
  View.canon [⟨r0_4, k0_pay3 (View.ld x0 r0_0) (View.ld x1 r0_1) (View.ld x2 r0_2)⟩]

/-- The one store tiles window 3's buffer, so it covers it. -/
theorem cover0_3 (p0 : Vec F S2048x64 .bf16) (y : S2048x64.Idx) :
    ∃ pc ∈ ([⟨r0_3, p0⟩] : List (View.Piece (Elt F) S2048x64 .bf16)), y ∈ pc.1.set :=
  View.cover_of_tiled [⟨r0_3, p0⟩] S2048x64.size (by rfl) y

/-- The one store tiles window 4's buffer, so it covers it. -/
theorem cover0_4 (p0 : Vec F S64x2048 .bf16) (y : S64x2048.Idx) :
    ∃ pc ∈ ([⟨r0_4, p0⟩] : List (View.Piece (Elt F) S64x2048 .bf16)), y ∈ pc.1.set :=
  View.cover_of_tiled [⟨r0_4, p0⟩] S64x2048.size (by rfl) y

/-! ## The body's triple -/

set_option maxHeartbeats 1000000 in
/-- The kernel body on whole staging memrefs, the inputs' at read contents `xW` and the outputs' at anything, runs
    to the continuation holding the inputs' as they were and each output's at `out0_W` of the inputs'. The body
    also reads each output buffer once before writing it; what it reads there is not used. -/
theorem sound_kernel0 (c : Dev nD) (E : Set ℕ) (arg0 : Memref sig .tc .vmem S4096x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S2048x64 .bf16) (harg3 : arg3.IsWhole) (arg4 : Memref sig .tc .vmem S64x2048 .bf16) (harg4 : arg4.IsWhole)
    (x0 : Vec F S4096x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0 x1 x2)) -∗ K ⟨⟩))
      ⊢ wp frame (wpE (defs₀ (F := F)) Variants.none c none) E (cc0__support_body arg0 harg0 arg1 harg1 arg2 harg2 arg3 harg3 arg4 harg4) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs in closed form -/

/-- The offsets of the whole-buffer rectangles are zero on every axis. -/
theorem zero_offsets : (![0, 0] : Fin 2 → Nat) = fun _ => 0 := funext fun a => by fin_cases a <;> rfl

/-- One store through the whole buffer leaves its payload, and the loads through the whole buffers read the blocks:
    window 3 after the body is the first payload of the input blocks. -/
theorem out0_3_eq (x0 : Vec F S4096x128 .f32) (x1 : Vec F S128x64 .f32) (x2 : Vec F S1x64 .f32) :
    out0_3 (F := F) x0 x1 x2 = k0_pay2 x0 x1 x2 := by
  unfold out0_3
  rw [View.canon_unit_zero zero_offsets]
  simp only [View.ld_unit_zero (S := S4096x128) zero_offsets, View.ld_unit_zero (S := S128x64) zero_offsets, View.ld_unit_zero (S := S1x64) zero_offsets]

/-- Window 4 after the body is the second payload of the input blocks. -/
theorem out0_4_eq (x0 : Vec F S4096x128 .f32) (x1 : Vec F S128x64 .f32) (x2 : Vec F S1x64 .f32) :
    out0_4 (F := F) x0 x1 x2 = k0_pay3 x0 x1 x2 := by
  unfold out0_4
  rw [View.canon_unit_zero zero_offsets]
  simp only [View.ld_unit_zero (S := S4096x128) zero_offsets, View.ld_unit_zero (S := S128x64) zero_offsets, View.ld_unit_zero (S := S1x64) zero_offsets]

end Cert.Kernel.Reg

end
-- ==== Proof.K.Reg1Defs.lean ====
/- Region 1 (the aggregation kernel on its grid of 4 points): what its body's runs and its proof data share —
   the windows' blocks read off the arrays as the region finds them, the carried accumulator point by point, the
   three branch conditions in closed form, where the second output is idle, the staging and scratch memrefs, and
   the region invariant with the scratch as an owned memref. -/
import proofs.«130676_g11785390260513_cont_main3_35_7_alg».proof.Proof.Gen.Kernel.Launch
import proofs.«130676_g11785390260513_cont_main3_35_7_alg».proof.Proof.Gen.Kernel.Skeleton
import proofs.«130676_g11785390260513_cont_main3_35_7_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks and the carried accumulator -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: the first point stores the product of its blocks, every later
    point adds its product to what the point before left. -/
def acc1 (c : Dev nD) : (n : ℕ) → n < cfg1.N → Vec F S64x2048 .f32
  | 0, hn => k1_pay4 (iblk1 V c 0 ⟨0, hn⟩) (iblk1 V c 1 ⟨0, hn⟩)
  | n + 1, hn => k1_pay5 (iblk1 V c 0 ⟨n + 1, hn⟩) (iblk1 V c 1 ⟨n + 1, hn⟩) (acc1 c n (Nat.lt_of_succ_lt hn))

theorem acc1_zero (c : Dev nD) (t : Fin cfg1.N) (h : t.val = 0) :
    acc1 V c t.val t.isLt = k1_pay4 (iblk1 V c 0 t) (iblk1 V c 1 t) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = k1_pay5 (iblk1 V c 0 t) (iblk1 V c 1 t)
      (acc1 V c (t.val - 1) (Nat.lt_of_le_of_lt (Nat.sub_le _ _) t.isLt)) := by
  obtain ⟨n, hn⟩ := t
  cases n with
  | zero => exact absurd rfl h
  | succ n => rfl

/-! ## Loads and stores of a whole buffer, through the unit rectangle at zero offsets -/

/-- The printed zero offsets of a rank-2 access are the zero function. -/
theorem zeros2 : (![0, 0] : Fin 2 → ℕ) = fun _ => 0 := by funext a; fin_cases a <;> rfl

section Whole
variable {κ : Kind} {sp : Space} {S : Shape} {e : EltTy}

/-- A load of the whole buffer reads its contents. -/
theorem readAt_zero (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- After one store of the whole buffer it reads as the stored payload, whatever it held. -/
theorem read_store_zero (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

end Whole

/-! ## The body's branch conditions -/

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the grid coordinate is positive). -/
abbrev cond1_1 (i : grid1.Coords) : Prop := (Scalar.cmpi .ne (Scalar.extui (Scalar.cmpi .sgt (BitVec.ofNat 32 (i 0).val) 0#32)) 0#32) = 1#1
/-- It holds at every point but the first. -/
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- The condition of the body's third `scf.if` (the grid coordinate is 3). -/
abbrev cond1_2 (i : grid1.Coords) : Prop := k1_cond3 i = 1#1
/-- It holds at the last point only. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the third condition fails the second output is idle: the body stores nothing into it, -/
theorem idleAt1_6 : ∀ t : Fin cfg1.N, ¬cond1_2 (grid1.coords t) → cfg1.idle 6 (grid1.coords t) = true := by decide +kernel
/-- and the pipeline does not write its block back. -/
theorem noFlush1_6 : ∀ t : Fin cfg1.N, ¬cond1_2 (grid1.coords t) → (cfg1.win 6).flush t = false := by decide +kernel
/-- Where it holds the body stores into it. -/
theorem liveAt1_6 : ∀ t : Fin cfg1.N, cond1_2 (grid1.coords t) → cfg1.idle 6 (grid1.coords t) = false := by decide +kernel

/-! ## The staging and scratch memrefs -/

/-- Each window's current staging memref at point `t`, spelled as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x64 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S64x2048 .f32 := Memref.whole cc1_scratch0

/-! ## The region invariant -/

/-- The core's five scoped buffers that belong to the other region's staging, each whole at some contents, beside
    what is said of the scratch (`P`): the scoped rest, in the order the launch lists it. -/
def others1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ P)

/-- The class's invariant with the scratch operand as a memref owned at some contents: the scoped rest is the other
    region's five staging buffers and the scratch. -/
theorem PhiA1_eq (c : Dev nD) :
    (Pipeline.ΦA spec1 c : sProp 𝕄)
      = iprop(others1 (F := F) c iprop(∃ d, owns (c : Thread nD τ) scM1_0 fullShare d) ∗ (∃ r, prngReg c r)) := by
  unfold Pipeline.ΦA others1; rw [scopedRest1_eq]; simp only [scM1_0, owns_whole]; try rfl

/-- The region invariant before position `n`: before the first point the class's (the scratch at anything);
    afterwards the other region's buffers at anything, the scratch at the accumulator the point before left, and
    the generator register at some state. -/
def PhiS (c : Dev nD) : (n : ℕ) → n ≤ cfg1.N → sProp 𝕄
  | 0, _ => Pipeline.ΦA spec1 c
  | n + 1, hn => iprop(others1 (F := F) c (owns (c : Thread nD τ) scM1_0 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c (owns (c : Thread nD τ) scM1_0 fullShare (acc1 V c n hn)) ∗ (∃ r, prngReg c r)) := rfl

theorem PhiS_pos (c : Dev nD) (n : ℕ) (h : n ≤ cfg1.N) (hz : n ≠ 0) :
    PhiS V c n h = iprop(others1 (F := F) c (owns (c : Thread nD τ) scM1_0 fullShare (acc1 V c (n - 1) (by omega))) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block, the first output's at the scaled product of the point's blocks, the
    second output's at the scaled transpose of the accumulator (consulted at the last point only: elsewhere the
    window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (iblk1 V c 3 t) (iblk1 V c 2 t)
    | ⟨6, _⟩ => k1_pay6 (iblk1 V c 4 t) (acc1 V c t.val t.isLt)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (iblk1 V c 0 t) (iblk1 V c 3 t) (iblk1 V c 2 t) := by dsimp only [dat1]
theorem after1_6 (c : Dev nD) (t : Fin cfg1.N) : (dat1 V c).after 6 t = k1_pay6 (iblk1 V c 4 t) (acc1 V c t.val t.isLt) := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Cert.Kernel.Reg

end
-- ==== Proof.K.Reg1RunA.lean ====
/- Region 1's body at the first grid point (the first branch taken, the other two not): the accumulator is initialised. -/
import proofs.«130676_g11785390260513_cont_main3_35_7_alg».proof.Proof.K.Reg1Defs

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where only the first condition holds, on whole staging memrefs: the four inputs it reads at their
    contents, the first output and the scratch at anything; it runs to the continuation holding the inputs as they
    were, the first output at the scaled product and the scratch at the product of the point's blocks. The second
    output's and the last input's memrefs are not touched. -/
theorem run1_A (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : cond1_0 i) (hc1 : ¬cond1_1 i) (hc2 : ¬cond1_2 i)
    (x0 : Vec F S512x2048 .f32) (x1 : Vec F S64x512 .bf16) (x2 : Vec F S2048x64 .bf16) (x3 : Vec F S512x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (k1_pay2 x0 x3 x2)
            ∗ owns (c : Thread nD τ) arg8 fullShare (k1_pay4 x0 x1)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%d6, %f6, -, H6⟩, ⟨%d8, %f8, -, H8⟩, Hk⟩
  subst hf0; subst hf1; subst hf2; subst hf3
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  iexists _; isplitr
  swap; · iexact H8
  ipureintro
  rw [read_store_zero (S := S64x2048) _ _ zeros2, readAt_zero (S := S512x2048) _ _ zeros2,
    readAt_zero (S := S64x512) _ _ zeros2]

end Cert.Kernel.Reg

end
-- ==== Proof.K.Reg1RunB.lean ====
/- Region 1's body at the middle grid points (the second branch taken, the first and third not): the accumulator grows. -/
import proofs.«130676_g11785390260513_cont_main3_35_7_alg».proof.Proof.K.Reg1Defs

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where only the second condition holds, on whole staging memrefs: the four inputs it reads at their
    contents, the first output at anything, the scratch at what the point before left (`xs`); it runs to the
    continuation holding the inputs as they were, the first output at the scaled product and the scratch at `xs` plus
    the product of the point's blocks. The second output's and the last input's memrefs are not touched. -/
theorem run1_B (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : ¬cond1_2 i)
    (x0 : Vec F S512x2048 .f32) (x1 : Vec F S64x512 .bf16) (x2 : Vec F S2048x64 .bf16) (x3 : Vec F S512x1 .f32)
    (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (k1_pay2 x0 x3 x2)
            ∗ owns (c : Thread nD τ) arg8 fullShare (k1_pay5 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%d6, %f6, -, H6⟩, ⟨%f8, %hf8, H8⟩, Hk⟩
  subst hf0; subst hf1; subst hf2; subst hf3; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  iexists _; isplitr
  swap; · iexact H8
  ipureintro
  rw [read_store_zero (S := S64x2048) _ _ zeros2, readAt_zero (S := S512x2048) _ _ zeros2,
    readAt_zero (S := S64x512) _ _ zeros2, readAt_zero (S := S64x2048) _ _ zeros2]

end Cert.Kernel.Reg

end
-- ==== Proof.K.Reg1RunC.lean ====
/- Region 1's body at the last grid point (the second and third branches taken, the first not): the accumulator takes its
   last term and the second output is stored. -/
import proofs.«130676_g11785390260513_cont_main3_35_7_alg».proof.Proof.K.Reg1Defs

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where the second and third conditions hold, on whole staging memrefs: the five inputs at their contents,
    both outputs at anything, the scratch at what the point before left (`xs`); it runs to the continuation holding the
    inputs as they were, the first output at the scaled product, the scratch at `xs` plus the product of the point's
    blocks, and the second output at the scaled transpose of that sum. -/
theorem run1_C (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : cond1_2 i)
    (x0 : Vec F S512x2048 .f32) (x1 : Vec F S64x512 .bf16) (x2 : Vec F S2048x64 .bf16) (x3 : Vec F S512x1 .f32)
    (x4 : Vec F S2048x1 .f32) (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x0 x3 x2)
            ∗ owns (c : Thread nD τ) arg7 fullShare (k1_pay6 x4 (k1_pay5 x0 x1 xs))
            ∗ owns (c : Thread nD τ) arg8 fullShare (k1_pay5 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  subst hf0; subst hf1; subst hf2; subst hf3; subst hf4; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  isplitl [H7]
  · iexists _; isplitr
    swap; · iexact H7
    ipureintro
    sl_unfold_run_names
    rw [read_store_zero (S := S2048x64) _ _ zeros2, readAt_zero (S := S2048x1) _ _ zeros2,
      View.readCov_unit_zero (S := S64x2048) _ zeros2, readAt_zero (S := S512x2048) _ _ zeros2,
      readAt_zero (S := S64x512) _ _ zeros2, readAt_zero (S := S64x2048) _ _ zeros2]
  iexists _; isplitr
  swap; · iexact H8
  ipureintro
  sl_unfold_run_names
  rw [read_store_zero (S := S64x2048) _ _ zeros2, readAt_zero (S := S512x2048) _ _ zeros2,
    readAt_zero (S := S64x512) _ _ zeros2, readAt_zero (S := S64x2048) _ _ zeros2]

end Cert.Kernel.Reg

end
-- ==== Proof.K.Reg1.lean ====
/- Region 1 (the aggregation kernel on its grid of 4 points), at the contents `V` the region is entered with: the body
   obligation of its proof data at a generic point, by cases on the three branch conditions in closed form, and the
   invariant's two ends. -/
import proofs.«130676_g11785390260513_cont_main3_35_7_alg».proof.Proof.K.Reg1RunA
import proofs.«130676_g11785390260513_cont_main3_35_7_alg».proof.Proof.K.Reg1RunB
import proofs.«130676_g11785390260513_cont_main3_35_7_alg».proof.Proof.K.Reg1RunC

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks (`before1_W`); the closed forms say which case the point
    is in; the invariant hands the body the scratch at what the point before left (at anything at the first point) and
    takes it back at this point's accumulator, the other region's buffers and the generator register pass through; the
    second output is handed back untouched where it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 4 := lt_of_lt_of_eq t.isLt (show cfg1.N = 4 from N_1)
  by_cases h0 : t.val % 4 = 0
  · have h2 : ¬ t.val % 4 = 3 := by omega
    have hz : t.val = 0 := by omega
    rw [Dat.leavesExact_idle (dat1 V c) 6 t (idleAt1_6 t (fun h => h2 ((hcond1_2 t).mp h))) (noFlush1_6 t (fun h => h2 ((hcond1_2 t).mp h)))]
    rw [acc1_zero V c t hz]
    rw [PhiS_castSucc V c t, PhiS_zero V c _ _ hz, PhiA1_eq]
    unfold others1
    iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ ((hcond1_0 t).mpr h0) (fun h => (hcond1_1 t).mp h h0) (fun h => h2 ((hcond1_2 t).mp h))
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H5]; · iexists _; iexact H5
    isplitl [HS0]; · iexact HS0
    iintro ⟨H0, H1, H2, H3, H5, HS0⟩
    isplitl [HA0 HA1 HA2 HA3 HA4 HS0 Hg]
    · isplitr [Hg]
      · isplitl [HA0]; · iexact HA0
        isplitl [HA1]; · iexact HA1
        isplitl [HA2]; · iexact HA2
        isplitl [HA3]; · iexact HA3
        isplitl [HA4]; · iexact HA4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h2 : t.val % 4 = 3
    · rw [show (dat1 V c).leavesExact 6 t = owns (c : Thread nD τ) (ms1_6 t) fullShare ((dat1 V c).after 6 t) from by
        unfold Dat.leavesExact; rw [liveAt1_6 t ((hcond1_2 t).mpr h2)], after1_6]
      rw [acc1_pos V c t hz]
      rw [PhiS_castSucc V c t, PhiS_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ (fun h => h0 ((hcond1_0 t).mp h)) ((hcond1_1 t).mpr h0) ((hcond1_2 t).mpr h2)
        (iblk1 V c 0 t) (iblk1 V c 1 t) (iblk1 V c 2 t) (iblk1 V c 3 t) (iblk1 V c 4 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, H5, H6, HS0⟩
      isplitl [HA0 HA1 HA2 HA3 HA4 HS0 Hg]
      · isplitr [Hg]
        · isplitl [HA0]; · iexact HA0
          isplitl [HA1]; · iexact HA1
          isplitl [HA2]; · iexact HA2
          isplitl [HA3]; · iexact HA3
          isplitl [HA4]; · iexact HA4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h2 ((hcond1_2 t).mp h))) (noFlush1_6 t (fun h => h2 ((hcond1_2 t).mp h)))]
      rw [acc1_pos V c t hz]
      rw [PhiS_castSucc V c t, PhiS_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ (fun h => h0 ((hcond1_0 t).mp h)) ((hcond1_1 t).mpr h0) (fun h => h2 ((hcond1_2 t).mp h))
        (iblk1 V c 0 t) (iblk1 V c 1 t) (iblk1 V c 2 t) (iblk1 V c 3 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H5]; · iexists _; iexact H5
      isplitl [HS0]; · iexact HS0
      iintro ⟨H0, H1, H2, H3, H5, HS0⟩
      isplitl [HA0 HA1 HA2 HA3 HA4 HS0 Hg]
      · isplitr [Hg]
        · isplitl [HA0]; · iexact HA0
          isplitl [HA1]; · iexact HA1
          isplitl [HA2]; · iexact HA2
          isplitl [HA3]; · iexact HA3
          isplitl [HA4]; · iexact HA4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨HA0, HA1, HA2, HA3, HA4, HS0⟩, Hg⟩
  isplitr [Hg]
  · isplitl [HA0]; · iexact HA0
    isplitl [HA1]; · iexact HA1
    isplitl [HA2]; · iexact HA2
    isplitl [HA3]; · iexact HA3
    isplitl [HA4]; · iexact HA4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.Kernel.Reg

end
-- ==== Proof.K.Run.lean ====
/-
  The whole run of the two-kernel program, at any float instance.

  @main is five items: two host operations (the weight transposed, the bias as a row), the support kernel, four host
  operations (the two halves of the degree vector as columns), the aggregation kernel, and the final concatenation.
  The contents of every buffer that outlives a kernel are followed from the launch memory through the five items:
  a host stretch applies its operations; a kernel leaves each of its arrays at what its write-backs fold to and every
  other buffer as it found it. Every weakly fair execution terminates with each such buffer at the last contents
  `B5`; the argument arrays are never written, so they end as launched, and the result is the concatenation of the
  aggregation kernel's two output arrays.
-/
import proofs.«130676_g11785390260513_cont_main3_35_7_alg».proof.Proof.K.Reg0
import proofs.«130676_g11785390260513_cont_main3_35_7_alg».proof.Proof.K.Reg1
import proofs.«130676_g11785390260513_cont_main3_35_7_alg».proof.Proof.Gen.Kernel.Regions

set_option maxRecDepth 16384
noncomputable section
namespace Cert.Kernel.Reg
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each boundary between two items -/

/-- Core `c`'s buffers at launch. -/
abbrev B0 : Dev nD → Valuation τ sig (Elt F) := fun c b => (s₀ m ρ).mem ((c : Dev nD), b)
/-- After the first host stretch (the support kernel's entry). -/
abbrev B1 : Dev nD → Valuation τ sig (Elt F) := fun c => StableHlo.after hostOps0 (B0 m ρ c)
/-- The same read at the TensorCore's references. -/
abbrev Bv1 : (c : Dev nD) → (b : Ref sig .tc) → Buf (Elt F) ((c : Thread nD τ).loc b) := fun c b => B1 m ρ c b
/-- At the support kernel's exit: its arrays at what the pipeline leaves, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)

/-- After the second host stretch (the aggregation kernel's entry). -/
abbrev B3 : Dev nD → Valuation τ sig (Elt F) := fun c => StableHlo.after hostOps1 (B2 m ρ c)
abbrev Bv3 : (c : Dev nD) → (b : Ref sig .tc) → Buf (Elt F) ((c : Thread nD τ).loc b) := fun c b => B3 m ρ c b
/-- At the aggregation kernel's exit. -/
def B4 (c : Dev nD) : Valuation τ sig (Elt F) :=
  Pipeline.withArrays spec1 c (B3 m ρ c) fun w => (dat1 (Bv3 m ρ) c).arrAt w cfg1.N
theorem B4_arr (c : Dev nD) (w : Fin cfg1.W) :
    B4 m ρ c (Proc.devRef .tc (Pipeline.arrRef spec1 w)) = (dat1 (Bv3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev Bv4 : (c : Dev nD) → (b : Ref sig .tc) → Buf (Elt F) ((c : Thread nD τ).loc b) := fun c b => B4 m ρ c b
theorem hF1 (c : Dev nD) (w : Fin cfg1.W) : (dat1 (Bv3 m ρ) c).arrAt w cfg1.N = Bv4 m ρ c (Pipeline.arrRef spec1 w) :=
  (B4_arr m ρ c w).symm
theorem hrest1 (c : Dev nD) : ∀ b, b ∉ Finset.univ.image (Pipeline.arrRef spec1) → Bv4 m ρ c b = Bv3 m ρ c b :=
  fun b hb => B4_of_ne m ρ c b fun w e => hb (Finset.mem_image.mpr ⟨w, Finset.mem_univ _, e⟩)

/-- After the last host stretch (the concatenation): the contents every execution ends with. -/
abbrev B5 : Dev nD → Valuation τ sig (Elt F) := fun c => StableHlo.after hostOps2 (B4 m ρ c)

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m ρ c) ∗ ∃ r, prngReg c r)

/-! ## The kernels as segments -/

set_option backward.isDefEq.respectTransparency.types false in
/-- The support kernel over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a kernel — the generator register, no table, the scoped buffers it does not stage — is
    the plain region invariant. -/
theorem phiA_in1 (c : Dev nD) :
    (iprop((∃ r, prngReg c r) ∗ Pipeline.prefHeld ((pcfgs (F := F)) 1).pre c (fun _ => fullShare) (adm (F := F) 1).1
        ∗ Pipeline.scopedRest ((Pipeline.pin (pcfgs (F := F)) adm 1).spec) c) : sProp 𝕄) ⊢ Pipeline.ΦA spec1 c := by
  unfold Pipeline.ΦA
  iintro ⟨Hp, -, Hr⟩
  isplitl [Hr]; · iexact Hr
  iexact Hp

set_option backward.isDefEq.respectTransparency.types false in
/-- The aggregation kernel over the thread state: entered from every unscoped buffer at `B3`, left at `B4`; its
    invariant starts as the plain one and ends giving the plain one back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c).trans (show Pipeline.ΦA spec1 c ⊢ (pdats m ρ 1 c).Φ 0 from hin1 (Bv3 m ρ) c)
  hout c := by
    rw [Pipeline.ownSems0_none]
    refine (show (pdats m ρ 1 c).Φ (Fin.last _) ⊢ Pipeline.ΦA spec1 c from hout1 (Bv3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv3 m ρ c) (Bv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every buffer that outlives the kernels at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-! ## The argument arrays end as launched

No host operation writes an argument and no kernel has one among its output windows: a kernel that stages an
argument through an input window leaves that array as it found it, and an argument a kernel does not stage is
among the buffers it leaves alone. So the last contents at an argument walk back to the launch memory. -/

theorem B5_of (c : Dev nD) (r : Ref sig .tc) (h : r ∉ hostOps2_W) :
    B5 m ρ c (Proc.devRef .tc r) = B4 m ρ c (Proc.devRef .tc r) :=
  StableHlo.after_of_writes_sub hostOps2 _ hostOps2_writes h
theorem B3_of (c : Dev nD) (r : Ref sig .tc) (h : r ∉ hostOps1_W) :
    B3 m ρ c (Proc.devRef .tc r) = B2 m ρ c (Proc.devRef .tc r) :=
  StableHlo.after_of_writes_sub hostOps1 _ hostOps1_writes h
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

/-- The features: staged by the support kernel's window 0, bypassed by the aggregation kernel. -/
theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of m ρ c main_arg0 (by decide)
    _ = B3 m ρ c (Proc.devRef .tc main_arg0) := B4_of_ne m ρ c main_arg0 (by decide)
    _ = B2 m ρ c (Proc.devRef .tc main_arg0) := B3_of m ρ c main_arg0 (by decide)
    _ = B1 m ρ c (Proc.devRef .tc main_arg0) := (B2_arr m ρ c 0).trans (((dat0 (Bv1 m ρ) c).arrAt_in 0 rfl _).trans (A_eq0 (Bv1 m ρ) c 0))
    _ = B0 m ρ c (Proc.devRef .tc main_arg0) := B1_of m ρ c main_arg0 (by decide)
    _ = m ((c : Thread nD τ).loc main_arg0) := rfl
/-- The adjacency: bypassed by the support kernel, staged by the aggregation kernel's window 0. -/
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of m ρ c main_arg1 (by decide)
    _ = B3 m ρ c (Proc.devRef .tc main_arg1) := (B4_arr m ρ c 0).trans (((dat1 (Bv3 m ρ) c).arrAt_in 0 rfl _).trans (A_eq1 (Bv3 m ρ) c 0))
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
/-- An array neither kernel stages: every item leaves it alone. -/
theorem B5_of_bypass (c : Dev nD) (r : Ref sig .tc) (h2 : r ∉ hostOps2_W) (h1 : r ∉ hostOps1_W) (h0 : r ∉ hostOps0_W)
    (hk1 : ∀ w, Pipeline.arrRef spec1 w ≠ r) (hk0 : ∀ w, Pipeline.arrRef spec0 w ≠ r) :
    B5 m ρ c (Proc.devRef .tc r) = m ((c : Thread nD τ).loc r) :=
  calc B5 m ρ c (Proc.devRef .tc r)
    _ = B4 m ρ c (Proc.devRef .tc r) := B5_of m ρ c r h2
    _ = B3 m ρ c (Proc.devRef .tc r) := B4_of_ne m ρ c r hk1
    _ = B2 m ρ c (Proc.devRef .tc r) := B3_of m ρ c r h1
    _ = B1 m ρ c (Proc.devRef .tc r) := B2_of_ne m ρ c r hk0
    _ = B0 m ρ c (Proc.devRef .tc r) := B1_of m ρ c r h0
    _ = m ((c : Thread nD τ).loc r) := rfl
theorem B5_main_arg2 (c : Dev nD) : B5 m ρ c (Proc.devRef .tc main_arg2) = m ((c : Thread nD τ).loc main_arg2) :=
  B5_of_bypass m ρ c main_arg2 (by decide) (by decide) (by decide) (by decide) (by decide)
theorem B5_main_arg3 (c : Dev nD) : B5 m ρ c (Proc.devRef .tc main_arg3) = m ((c : Thread nD τ).loc main_arg3) :=
  B5_of_bypass m ρ c main_arg3 (by decide) (by decide) (by decide) (by decide) (by decide)
theorem B5_main_arg4 (c : Dev nD) : B5 m ρ c (Proc.devRef .tc main_arg4) = m ((c : Thread nD τ).loc main_arg4) :=
  B5_of_bypass m ρ c main_arg4 (by decide) (by decide) (by decide) (by decide) (by decide)

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- The run with the result named: the result array ends at the last contents' entry for it, the arguments as launched. -/
theorem run_result : θ_run defs (onTc (τ := τ) (main (F := F))) ⟨m, fun _ => 0, ρ⟩ (fun r => ∀ c : Dev nD,
      r.2.mem ((c.tc : Thread nD τ).loc main_v8) = B5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v8 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

end Cert.Kernel.Reg

end
-- ==== Proof.KI.Reg0.lean ====
import proofs.«130676_g11785390260513_cont_main3_35_7_alg».proof.Proof.Gen.KernelIdeal.Launch
import proofs.«130676_g11785390260513_cont_main3_35_7_alg».proof.Proof.Gen.KernelIdeal.Skeleton
import proofs.«130676_g11785390260513_cont_main3_35_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0 of @main (the gridless call computing the support matrix): the body's half of the frame proof,
    at any float instance. The call has five windows, each one whole-array block at its single point: the
    inputs x [4096,128], Wt [128,64], b [1,64] and the outputs sup2 [2048,64], sup1t [64,2048]. The body reads
    the three inputs whole, then writes each output whole with one store; so after the body each output's
    staging buffer holds the store's payload at the input blocks. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4096x128 := Rect.unit (s := S4096x128) ![0, 0] S4096x128.size inb_S4096x128_S4096x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S2048x64 := Rect.unit (s := S2048x64) ![0, 0] S2048x64.size inb_S2048x64_S2048x64_0_0
abbrev r0_4 : Rect S64x2048 := Rect.unit (s := S64x2048) ![0, 0] S64x2048.size inb_S64x2048_S64x2048_0_0

/-! ## What the body leaves in each output window's buffer -/

/-- Window 3's staging buffer after the body, from the input windows' blocks: its one store as a piece. -/
def out0_3 (x0 : Vec F S4096x128 .f32) (x1 : Vec F S128x64 .f32) (x2 : Vec F S1x64 .f32) : Vec F S2048x64 .bf16 :=
  View.canon [⟨r0_3, k0_pay2 (View.ld x0 r0_0) (View.ld x1 r0_1) (View.ld x2 r0_2)⟩]

/-- Window 4's staging buffer after the body, from the input windows' blocks: its one store as a piece. -/
def out0_4 (x0 : Vec F S4096x128 .f32) (x1 : Vec F S128x64 .f32) (x2 : Vec F S1x64 .f32) : Vec F S64x2048 .bf16 :=
  View.canon [⟨r0_4, k0_pay3 (View.ld x0 r0_0) (View.ld x1 r0_1) (View.ld x2 r0_2)⟩]

/-- The one store tiles window 3's buffer, so it covers it. -/
theorem cover0_3 (p0 : Vec F S2048x64 .bf16) (y : S2048x64.Idx) :
    ∃ pc ∈ ([⟨r0_3, p0⟩] : List (View.Piece (Elt F) S2048x64 .bf16)), y ∈ pc.1.set :=
  View.cover_of_tiled [⟨r0_3, p0⟩] S2048x64.size (by rfl) y

/-- The one store tiles window 4's buffer, so it covers it. -/
theorem cover0_4 (p0 : Vec F S64x2048 .bf16) (y : S64x2048.Idx) :
    ∃ pc ∈ ([⟨r0_4, p0⟩] : List (View.Piece (Elt F) S64x2048 .bf16)), y ∈ pc.1.set :=
  View.cover_of_tiled [⟨r0_4, p0⟩] S64x2048.size (by rfl) y

/-! ## The body's triple -/

set_option maxHeartbeats 1000000 in
/-- The kernel body on whole staging memrefs, the inputs' at read contents `xW` and the outputs' at anything, runs
    to the continuation holding the inputs' as they were and each output's at `out0_W` of the inputs'. The body
    also reads each output buffer once before writing it; what it reads there is not used. -/
theorem sound_kernel0 (c : Dev nD) (E : Set ℕ) (arg0 : Memref sig .tc .vmem S4096x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S2048x64 .bf16) (harg3 : arg3.IsWhole) (arg4 : Memref sig .tc .vmem S64x2048 .bf16) (harg4 : arg4.IsWhole)
    (x0 : Vec F S4096x128 .f32) (x1 : Vec F S128x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0 x1 x2)) -∗ K ⟨⟩))
      ⊢ wp frame (wpE (defs₀ (F := F)) Variants.none c none) E (cc0__support_body arg0 harg0 arg1 harg1 arg2 harg2 arg3 harg3 arg4 harg4) K := by
  simp only [cc0__support_body_eq_skeleton]; unfold cc0__support_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs in closed form -/

/-- The offsets of the whole-buffer rectangles are zero on every axis. -/
theorem zero_offsets : (![0, 0] : Fin 2 → Nat) = fun _ => 0 := funext fun a => by fin_cases a <;> rfl

/-- One store through the whole buffer leaves its payload, and the loads through the whole buffers read the blocks:
    window 3 after the body is the first payload of the input blocks. -/
theorem out0_3_eq (x0 : Vec F S4096x128 .f32) (x1 : Vec F S128x64 .f32) (x2 : Vec F S1x64 .f32) :
    out0_3 (F := F) x0 x1 x2 = k0_pay2 x0 x1 x2 := by
  unfold out0_3
  rw [View.canon_unit_zero zero_offsets]
  simp only [View.ld_unit_zero (S := S4096x128) zero_offsets, View.ld_unit_zero (S := S128x64) zero_offsets, View.ld_unit_zero (S := S1x64) zero_offsets]

/-- Window 4 after the body is the second payload of the input blocks. -/
theorem out0_4_eq (x0 : Vec F S4096x128 .f32) (x1 : Vec F S128x64 .f32) (x2 : Vec F S1x64 .f32) :
    out0_4 (F := F) x0 x1 x2 = k0_pay3 x0 x1 x2 := by
  unfold out0_4
  rw [View.canon_unit_zero zero_offsets]
  simp only [View.ld_unit_zero (S := S4096x128) zero_offsets, View.ld_unit_zero (S := S128x64) zero_offsets, View.ld_unit_zero (S := S1x64) zero_offsets]

end Cert.KernelIdeal.Reg

end
-- ==== Proof.KI.Reg1Defs.lean ====
/- Region 1 (the aggregation kernel on its grid of 4 points): what its body's runs and its proof data share —
   the windows' blocks read off the arrays as the region finds them, the carried accumulator point by point, the
   three branch conditions in closed form, where the second output is idle, the staging and scratch memrefs, and
   the region invariant with the scratch as an owned memref. -/
import proofs.«130676_g11785390260513_cont_main3_35_7_alg».proof.Proof.Gen.KernelIdeal.Launch
import proofs.«130676_g11785390260513_cont_main3_35_7_alg».proof.Proof.Gen.KernelIdeal.Skeleton
import proofs.«130676_g11785390260513_cont_main3_35_7_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks and the carried accumulator -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: the first point stores the product of its blocks, every later
    point adds its product to what the point before left. -/
def acc1 (c : Dev nD) : (n : ℕ) → n < cfg1.N → Vec F S64x2048 .f32
  | 0, hn => k1_pay4 (iblk1 V c 0 ⟨0, hn⟩) (iblk1 V c 1 ⟨0, hn⟩)
  | n + 1, hn => k1_pay5 (iblk1 V c 0 ⟨n + 1, hn⟩) (iblk1 V c 1 ⟨n + 1, hn⟩) (acc1 c n (Nat.lt_of_succ_lt hn))

theorem acc1_zero (c : Dev nD) (t : Fin cfg1.N) (h : t.val = 0) :
    acc1 V c t.val t.isLt = k1_pay4 (iblk1 V c 0 t) (iblk1 V c 1 t) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = k1_pay5 (iblk1 V c 0 t) (iblk1 V c 1 t)
      (acc1 V c (t.val - 1) (Nat.lt_of_le_of_lt (Nat.sub_le _ _) t.isLt)) := by
  obtain ⟨n, hn⟩ := t
  cases n with
  | zero => exact absurd rfl h
  | succ n => rfl

/-! ## Loads and stores of a whole buffer, through the unit rectangle at zero offsets -/

/-- The printed zero offsets of a rank-2 access are the zero function. -/
theorem zeros2 : (![0, 0] : Fin 2 → ℕ) = fun _ => 0 := by funext a; fin_cases a <;> rfl

section Whole
variable {κ : Kind} {sp : Space} {S : Shape} {e : EltTy}

/-- A load of the whole buffer reads its contents. -/
theorem readAt_zero (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- After one store of the whole buffer it reads as the stored payload, whatever it held. -/
theorem read_store_zero (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

end Whole

/-! ## The body's branch conditions -/

/-- The condition of the body's first `scf.if` (the grid coordinate is 0), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (the grid coordinate is positive). -/
abbrev cond1_1 (i : grid1.Coords) : Prop := (Scalar.cmpi .ne (Scalar.extui (Scalar.cmpi .sgt (BitVec.ofNat 32 (i 0).val) 0#32)) 0#32) = 1#1
/-- It holds at every point but the first. -/
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- The condition of the body's third `scf.if` (the grid coordinate is 3). -/
abbrev cond1_2 (i : grid1.Coords) : Prop := k1_cond3 i = 1#1
/-- It holds at the last point only. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the third condition fails the second output is idle: the body stores nothing into it, -/
theorem idleAt1_6 : ∀ t : Fin cfg1.N, ¬cond1_2 (grid1.coords t) → cfg1.idle 6 (grid1.coords t) = true := by decide +kernel
/-- and the pipeline does not write its block back. -/
theorem noFlush1_6 : ∀ t : Fin cfg1.N, ¬cond1_2 (grid1.coords t) → (cfg1.win 6).flush t = false := by decide +kernel
/-- Where it holds the body stores into it. -/
theorem liveAt1_6 : ∀ t : Fin cfg1.N, cond1_2 (grid1.coords t) → cfg1.idle 6 (grid1.coords t) = false := by decide +kernel

/-! ## The staging and scratch memrefs -/

/-- Each window's current staging memref at point `t`, spelled as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x64 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S64x2048 .f32 := Memref.whole cc1_scratch0

/-! ## The region invariant -/

/-- The core's five scoped buffers that belong to the other region's staging, each whole at some contents, beside
    what is said of the scratch (`P`): the scoped rest, in the order the launch lists it. -/
def others1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ P)

/-- The class's invariant with the scratch operand as a memref owned at some contents: the scoped rest is the other
    region's five staging buffers and the scratch. -/
theorem PhiA1_eq (c : Dev nD) :
    (Pipeline.ΦA spec1 c : sProp 𝕄)
      = iprop(others1 (F := F) c iprop(∃ d, owns (c : Thread nD τ) scM1_0 fullShare d) ∗ (∃ r, prngReg c r)) := by
  unfold Pipeline.ΦA others1; rw [scopedRest1_eq]; simp only [scM1_0, owns_whole]; try rfl

/-- The region invariant before position `n`: before the first point the class's (the scratch at anything);
    afterwards the other region's buffers at anything, the scratch at the accumulator the point before left, and
    the generator register at some state. -/
def PhiS (c : Dev nD) : (n : ℕ) → n ≤ cfg1.N → sProp 𝕄
  | 0, _ => Pipeline.ΦA spec1 c
  | n + 1, hn => iprop(others1 (F := F) c (owns (c : Thread nD τ) scM1_0 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c (owns (c : Thread nD τ) scM1_0 fullShare (acc1 V c n hn)) ∗ (∃ r, prngReg c r)) := rfl

theorem PhiS_pos (c : Dev nD) (n : ℕ) (h : n ≤ cfg1.N) (hz : n ≠ 0) :
    PhiS V c n h = iprop(others1 (F := F) c (owns (c : Thread nD τ) scM1_0 fullShare (acc1 V c (n - 1) (by omega))) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block, the first output's at the scaled product of the point's blocks, the
    second output's at the scaled transpose of the accumulator (consulted at the last point only: elsewhere the
    window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (iblk1 V c 0 t) (iblk1 V c 3 t) (iblk1 V c 2 t)
    | ⟨6, _⟩ => k1_pay6 (iblk1 V c 4 t) (acc1 V c t.val t.isLt)
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (iblk1 V c 0 t) (iblk1 V c 3 t) (iblk1 V c 2 t) := by dsimp only [dat1]
theorem after1_6 (c : Dev nD) (t : Fin cfg1.N) : (dat1 V c).after 6 t = k1_pay6 (iblk1 V c 4 t) (acc1 V c t.val t.isLt) := by dsimp only [dat1]

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Cert.KernelIdeal.Reg

end
-- ==== Proof.KI.Reg1RunA.lean ====
/- Region 1's body at the first grid point (the first branch taken, the other two not): the accumulator is initialised. -/
import proofs.«130676_g11785390260513_cont_main3_35_7_alg».proof.Proof.KI.Reg1Defs

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where only the first condition holds, on whole staging memrefs: the four inputs it reads at their
    contents, the first output and the scratch at anything; it runs to the continuation holding the inputs as they
    were, the first output at the scaled product and the scratch at the product of the point's blocks. The second
    output's and the last input's memrefs are not touched. -/
theorem run1_A (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : cond1_0 i) (hc1 : ¬cond1_1 i) (hc2 : ¬cond1_2 i)
    (x0 : Vec F S512x2048 .f32) (x1 : Vec F S64x512 .bf16) (x2 : Vec F S2048x64 .bf16) (x3 : Vec F S512x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (k1_pay2 x0 x3 x2)
            ∗ owns (c : Thread nD τ) arg8 fullShare (k1_pay4 x0 x1)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%d6, %f6, -, H6⟩, ⟨%d8, %f8, -, H8⟩, Hk⟩
  subst hf0; subst hf1; subst hf2; subst hf3
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  iexists _; isplitr
  swap; · iexact H8
  ipureintro
  rw [read_store_zero (S := S64x2048) _ _ zeros2, readAt_zero (S := S512x2048) _ _ zeros2,
    readAt_zero (S := S64x512) _ _ zeros2]

end Cert.KernelIdeal.Reg

end
-- ==== Proof.KI.Reg1RunB.lean ====
/- Region 1's body at the middle grid points (the second branch taken, the first and third not): the accumulator grows. -/
import proofs.«130676_g11785390260513_cont_main3_35_7_alg».proof.Proof.KI.Reg1Defs

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where only the second condition holds, on whole staging memrefs: the four inputs it reads at their
    contents, the first output at anything, the scratch at what the point before left (`xs`); it runs to the
    continuation holding the inputs as they were, the first output at the scaled product and the scratch at `xs` plus
    the product of the point's blocks. The second output's and the last input's memrefs are not touched. -/
theorem run1_B (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : ¬cond1_2 i)
    (x0 : Vec F S512x2048 .f32) (x1 : Vec F S64x512 .bf16) (x2 : Vec F S2048x64 .bf16) (x3 : Vec F S512x1 .f32)
    (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (k1_pay2 x0 x3 x2)
            ∗ owns (c : Thread nD τ) arg8 fullShare (k1_pay5 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%d6, %f6, -, H6⟩, ⟨%f8, %hf8, H8⟩, Hk⟩
  subst hf0; subst hf1; subst hf2; subst hf3; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  iexists _; isplitr
  swap; · iexact H8
  ipureintro
  rw [read_store_zero (S := S64x2048) _ _ zeros2, readAt_zero (S := S512x2048) _ _ zeros2,
    readAt_zero (S := S64x512) _ _ zeros2, readAt_zero (S := S64x2048) _ _ zeros2]

end Cert.KernelIdeal.Reg

end
-- ==== Proof.KI.Reg1RunC.lean ====
/- Region 1's body at the last grid point (the second and third branches taken, the first not): the accumulator takes its
   last term and the second output is stored. -/
import proofs.«130676_g11785390260513_cont_main3_35_7_alg».proof.Proof.KI.Reg1Defs

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 4000000 in
/-- The body where the second and third conditions hold, on whole staging memrefs: the five inputs at their contents,
    both outputs at anything, the scratch at what the point before left (`xs`); it runs to the continuation holding the
    inputs as they were, the first output at the scaled product, the scratch at `xs` plus the product of the point's
    blocks, and the second output at the scaled transpose of that sum. -/
theorem run1_C (c : Dev nD) (i : grid1.Coords) (arg1 : Memref sig .tc .vmem S512x2048 .f32) (harg1 : arg1.IsWhole) (arg2 : Memref sig .tc .vmem S64x512 .bf16) (harg2 : arg2.IsWhole) (arg3 : Memref sig .tc .vmem S2048x64 .bf16) (harg3 : arg3.IsWhole) (arg4 : Memref sig .tc .vmem S512x1 .f32) (harg4 : arg4.IsWhole) (arg5 : Memref sig .tc .vmem S2048x1 .f32) (harg5 : arg5.IsWhole) (arg6 : Memref sig .tc .vmem S512x64 .f32) (harg6 : arg6.IsWhole) (arg7 : Memref sig .tc .vmem S2048x64 .f32) (harg7 : arg7.IsWhole) (arg8 : Memref sig .tc .vmem S64x2048 .f32) (harg8 : arg8.IsWhole)
    (hc0 : ¬cond1_0 i) (hc1 : cond1_1 i) (hc2 : cond1_2 i)
    (x0 : Vec F S512x2048 .f32) (x1 : Vec F S64x512 .bf16) (x2 : Vec F S2048x64 .bf16) (x3 : Vec F S512x1 .f32)
    (x4 : Vec F S2048x1 .f32) (xs : Vec F S64x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay2 x0 x3 x2)
            ∗ owns (c : Thread nD τ) arg7 fullShare (k1_pay6 x4 (k1_pay5 x0 x1 xs))
            ∗ owns (c : Thread nD τ) arg8 fullShare (k1_pay5 x0 x1 xs)) -∗ K ⟨⟩))
      ⊢ wp frame (wpE (defs₀ (F := F)) Variants.none c none) E (cc1__agg_body i arg1 harg1 arg2 harg2 arg3 harg3 arg4 harg4 arg5 harg5 arg6 harg6 arg7 harg7 arg8 harg8) K := by
  simp only [cc1__agg_body_eq_skeleton]; unfold cc1__agg_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  subst hf0; subst hf1; subst hf2; subst hf3; subst hf4; subst hf8
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    rw [read_store_zero (S := S512x64) _ _ zeros2, readAt_zero (S := S512x2048) _ _ zeros2,
      readAt_zero (S := S512x1) _ _ zeros2, readAt_zero (S := S2048x64) _ _ zeros2]
  isplitl [H7]
  · iexists _; isplitr
    swap; · iexact H7
    ipureintro
    sl_unfold_run_names
    rw [read_store_zero (S := S2048x64) _ _ zeros2, readAt_zero (S := S2048x1) _ _ zeros2,
      View.readCov_unit_zero (S := S64x2048) _ zeros2, readAt_zero (S := S512x2048) _ _ zeros2,
      readAt_zero (S := S64x512) _ _ zeros2, readAt_zero (S := S64x2048) _ _ zeros2]
  iexists _; isplitr
  swap; · iexact H8
  ipureintro
  sl_unfold_run_names
  rw [read_store_zero (S := S64x2048) _ _ zeros2, readAt_zero (S := S512x2048) _ _ zeros2,
    readAt_zero (S := S64x512) _ _ zeros2, readAt_zero (S := S64x2048) _ _ zeros2]

end Cert.KernelIdeal.Reg

end
-- ==== Proof.KI.Reg1.lean ====
/- Region 1 (the aggregation kernel on its grid of 4 points), at the contents `V` the region is entered with: the body
   obligation of its proof data at a generic point, by cases on the three branch conditions in closed form, and the
   invariant's two ends. -/
import proofs.«130676_g11785390260513_cont_main3_35_7_alg».proof.Proof.KI.Reg1RunA
import proofs.«130676_g11785390260513_cont_main3_35_7_alg».proof.Proof.KI.Reg1RunB
import proofs.«130676_g11785390260513_cont_main3_35_7_alg».proof.Proof.KI.Reg1RunC

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The body obligation, at a generic point -/

/-- What the body is called with at point `t` (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks (`before1_W`); the closed forms say which case the point
    is in; the invariant hands the body the scratch at what the point before left (at anything at the first point) and
    takes it back at this point's accumulator, the other region's buffers and the generator register pass through; the
    second output is handed back untouched where it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  have hN : t.val < 4 := lt_of_lt_of_eq t.isLt (show cfg1.N = 4 from N_1)
  by_cases h0 : t.val % 4 = 0
  · have h2 : ¬ t.val % 4 = 3 := by omega
    have hz : t.val = 0 := by omega
    rw [Dat.leavesExact_idle (dat1 V c) 6 t (idleAt1_6 t (fun h => h2 ((hcond1_2 t).mp h))) (noFlush1_6 t (fun h => h2 ((hcond1_2 t).mp h)))]
    rw [acc1_zero V c t hz]
    rw [PhiS_castSucc V c t, PhiS_zero V c _ _ hz, PhiA1_eq]
    unfold others1
    iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (run1_A c (grid1.coords t) _ _ _ _ _ _ _ _ _ _ _ _ _ _ _ _ ((hcond1_0 t).mpr h0) (fun h => (hcond1_1 t).mp h h0) (fun h => h2 ((hcond1_2 t).mp h))
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H5]; · iexists _; iexact H5
    isplitl [HS0]; · iexact HS0
    iintro ⟨H0, H1, H2, H3, H5, HS0⟩
    isplitl [HA0 HA1 HA2 HA3 HA4 HS0 Hg]
    · isplitr [Hg]
      · isplitl [HA0]; · iexact HA0
        isplitl [HA1]; · iexact HA1
        isplitl [HA2]; · iexact HA2
        isplitl [HA3]; · iexact HA3
        isplitl [HA4]; · iexact HA4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := by omega
    by_cases h2 : t.val % 4 = 3
    · rw [show (dat1 V c).leavesExact 6 t = owns (c : Thread nD τ) (ms1_6 t) fullShare ((dat1 V c).after 6 t) from by
        unfold Dat.leavesExact; rw [liveAt1_6 t ((hcond1_2 t).mpr h2)], after1_6]
      rw [acc1_pos V c t hz]
      rw [PhiS_castSucc V c t, PhiS_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (run1_C c (grid1.coords t) _ _ _ _ _ _ _ _ _ _ _ _ _ _ _ _ (fun h => h0 ((hcond1_0 t).mp h)) ((hcond1_1 t).mpr h0) ((hcond1_2 t).mpr h2)
        (iblk1 V c 0 t) (iblk1 V c 1 t) (iblk1 V c 2 t) (iblk1 V c 3 t) (iblk1 V c 4 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, H5, H6, HS0⟩
      isplitl [HA0 HA1 HA2 HA3 HA4 HS0 Hg]
      · isplitr [Hg]
        · isplitl [HA0]; · iexact HA0
          isplitl [HA1]; · iexact HA1
          isplitl [HA2]; · iexact HA2
          isplitl [HA3]; · iexact HA3
          isplitl [HA4]; · iexact HA4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t (fun h => h2 ((hcond1_2 t).mp h))) (noFlush1_6 t (fun h => h2 ((hcond1_2 t).mp h)))]
      rw [acc1_pos V c t hz]
      rw [PhiS_castSucc V c t, PhiS_pos V c _ _ hz]
      unfold others1
      iintro ⟨⟨⟨HA0, HA1, HA2, HA3, HA4, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (run1_B c (grid1.coords t) _ _ _ _ _ _ _ _ _ _ _ _ _ _ _ _ (fun h => h0 ((hcond1_0 t).mp h)) ((hcond1_1 t).mpr h0) (fun h => h2 ((hcond1_2 t).mp h))
        (iblk1 V c 0 t) (iblk1 V c 1 t) (iblk1 V c 2 t) (iblk1 V c 3 t)
        (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H5]; · iexists _; iexact H5
      isplitl [HS0]; · iexact HS0
      iintro ⟨H0, H1, H2, H3, H5, HS0⟩
      isplitl [HA0 HA1 HA2 HA3 HA4 HS0 Hg]
      · isplitr [Hg]
        · isplitl [HA0]; · iexact HA0
          isplitl [HA1]; · iexact HA1
          isplitl [HA2]; · iexact HA2
          isplitl [HA3]; · iexact HA3
          isplitl [HA4]; · iexact HA4
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨HA0, HA1, HA2, HA3, HA4, HS0⟩, Hg⟩
  isplitr [Hg]
  · isplitl [HA0]; · iexact HA0
    isplitl [HA1]; · iexact HA1
    isplitl [HA2]; · iexact HA2
    isplitl [HA3]; · iexact HA3
    isplitl [HA4]; · iexact HA4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 4 := N_1; omega)

end Cert.KernelIdeal.Reg

end
-- ==== Proof.KI.Run.lean ====
/-
  The whole run of the two-kernel program, at any float instance.

  @main is five items: two host operations (the weight transposed, the bias as a row), the support kernel, four host
  operations (the two halves of the degree vector as columns), the aggregation kernel, and the final concatenation.
  The contents of every buffer that outlives a kernel are followed from the launch memory through the five items:
  a host stretch applies its operations; a kernel leaves each of its arrays at what its write-backs fold to and every
  other buffer as it found it. Every weakly fair execution terminates with each such buffer at the last contents
  `B5`; the argument arrays are never written, so they end as launched, and the result is the concatenation of the
  aggregation kernel's two output arrays.
-/
import proofs.«130676_g11785390260513_cont_main3_35_7_alg».proof.Proof.KI.Reg0
import proofs.«130676_g11785390260513_cont_main3_35_7_alg».proof.Proof.KI.Reg1
import proofs.«130676_g11785390260513_cont_main3_35_7_alg».proof.Proof.Gen.KernelIdeal.Regions

set_option maxRecDepth 16384
noncomputable section
namespace Cert.KernelIdeal.Reg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each boundary between two items -/

/-- Core `c`'s buffers at launch. -/
abbrev B0 : Dev nD → Valuation τ sig (Elt F) := fun c b => (s₀ m ρ).mem ((c : Dev nD), b)
/-- After the first host stretch (the support kernel's entry). -/
abbrev B1 : Dev nD → Valuation τ sig (Elt F) := fun c => StableHlo.after hostOps0 (B0 m ρ c)
/-- The same read at the TensorCore's references. -/
abbrev Bv1 : (c : Dev nD) → (b : Ref sig .tc) → Buf (Elt F) ((c : Thread nD τ).loc b) := fun c b => B1 m ρ c b
/-- At the support kernel's exit: its arrays at what the pipeline leaves, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)

/-- After the second host stretch (the aggregation kernel's entry). -/
abbrev B3 : Dev nD → Valuation τ sig (Elt F) := fun c => StableHlo.after hostOps1 (B2 m ρ c)
abbrev Bv3 : (c : Dev nD) → (b : Ref sig .tc) → Buf (Elt F) ((c : Thread nD τ).loc b) := fun c b => B3 m ρ c b
/-- At the aggregation kernel's exit. -/
def B4 (c : Dev nD) : Valuation τ sig (Elt F) :=
  Pipeline.withArrays spec1 c (B3 m ρ c) fun w => (dat1 (Bv3 m ρ) c).arrAt w cfg1.N
theorem B4_arr (c : Dev nD) (w : Fin cfg1.W) :
    B4 m ρ c (Proc.devRef .tc (Pipeline.arrRef spec1 w)) = (dat1 (Bv3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev Bv4 : (c : Dev nD) → (b : Ref sig .tc) → Buf (Elt F) ((c : Thread nD τ).loc b) := fun c b => B4 m ρ c b
theorem hF1 (c : Dev nD) (w : Fin cfg1.W) : (dat1 (Bv3 m ρ) c).arrAt w cfg1.N = Bv4 m ρ c (Pipeline.arrRef spec1 w) :=
  (B4_arr m ρ c w).symm
theorem hrest1 (c : Dev nD) : ∀ b, b ∉ Finset.univ.image (Pipeline.arrRef spec1) → Bv4 m ρ c b = Bv3 m ρ c b :=
  fun b hb => B4_of_ne m ρ c b fun w e => hb (Finset.mem_image.mpr ⟨w, Finset.mem_univ _, e⟩)

/-- After the last host stretch (the concatenation): the contents every execution ends with. -/
abbrev B5 : Dev nD → Valuation τ sig (Elt F) := fun c => StableHlo.after hostOps2 (B4 m ρ c)

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m ρ c) ∗ ∃ r, prngReg c r)

/-! ## The kernels as segments -/

set_option backward.isDefEq.respectTransparency.types false in
/-- The support kernel over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a kernel — the generator register, no table, the scoped buffers it does not stage — is
    the plain region invariant. -/
theorem phiA_in1 (c : Dev nD) :
    (iprop((∃ r, prngReg c r) ∗ Pipeline.prefHeld ((pcfgs (F := F)) 1).pre c (fun _ => fullShare) (adm (F := F) 1).1
        ∗ Pipeline.scopedRest ((Pipeline.pin (pcfgs (F := F)) adm 1).spec) c) : sProp 𝕄) ⊢ Pipeline.ΦA spec1 c := by
  unfold Pipeline.ΦA
  iintro ⟨Hp, -, Hr⟩
  isplitl [Hr]; · iexact Hr
  iexact Hp

set_option backward.isDefEq.respectTransparency.types false in
/-- The aggregation kernel over the thread state: entered from every unscoped buffer at `B3`, left at `B4`; its
    invariant starts as the plain one and ends giving the plain one back (the accumulator's contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c).trans (show Pipeline.ΦA spec1 c ⊢ (pdats m ρ 1 c).Φ 0 from hin1 (Bv3 m ρ) c)
  hout c := by
    rw [Pipeline.ownSems0_none]
    refine (show (pdats m ρ 1 c).Φ (Fin.last _) ⊢ Pipeline.ΦA spec1 c from hout1 (Bv3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv3 m ρ c) (Bv4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every buffer that outlives the kernels at the last boundary's contents `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

/-! ## The argument arrays end as launched

No host operation writes an argument and no kernel has one among its output windows: a kernel that stages an
argument through an input window leaves that array as it found it, and an argument a kernel does not stage is
among the buffers it leaves alone. So the last contents at an argument walk back to the launch memory. -/

theorem B5_of (c : Dev nD) (r : Ref sig .tc) (h : r ∉ hostOps2_W) :
    B5 m ρ c (Proc.devRef .tc r) = B4 m ρ c (Proc.devRef .tc r) :=
  StableHlo.after_of_writes_sub hostOps2 _ hostOps2_writes h
theorem B3_of (c : Dev nD) (r : Ref sig .tc) (h : r ∉ hostOps1_W) :
    B3 m ρ c (Proc.devRef .tc r) = B2 m ρ c (Proc.devRef .tc r) :=
  StableHlo.after_of_writes_sub hostOps1 _ hostOps1_writes h
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

/-- The features: staged by the support kernel's window 0, bypassed by the aggregation kernel. -/
theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of m ρ c main_arg0 (by decide)
    _ = B3 m ρ c (Proc.devRef .tc main_arg0) := B4_of_ne m ρ c main_arg0 (by decide)
    _ = B2 m ρ c (Proc.devRef .tc main_arg0) := B3_of m ρ c main_arg0 (by decide)
    _ = B1 m ρ c (Proc.devRef .tc main_arg0) := (B2_arr m ρ c 0).trans (((dat0 (Bv1 m ρ) c).arrAt_in 0 rfl _).trans (A_eq0 (Bv1 m ρ) c 0))
    _ = B0 m ρ c (Proc.devRef .tc main_arg0) := B1_of m ρ c main_arg0 (by decide)
    _ = m ((c : Thread nD τ).loc main_arg0) := rfl
/-- The adjacency: bypassed by the support kernel, staged by the aggregation kernel's window 0. -/
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of m ρ c main_arg1 (by decide)
    _ = B3 m ρ c (Proc.devRef .tc main_arg1) := (B4_arr m ρ c 0).trans (((dat1 (Bv3 m ρ) c).arrAt_in 0 rfl _).trans (A_eq1 (Bv3 m ρ) c 0))
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
/-- An array neither kernel stages: every item leaves it alone. -/
theorem B5_of_bypass (c : Dev nD) (r : Ref sig .tc) (h2 : r ∉ hostOps2_W) (h1 : r ∉ hostOps1_W) (h0 : r ∉ hostOps0_W)
    (hk1 : ∀ w, Pipeline.arrRef spec1 w ≠ r) (hk0 : ∀ w, Pipeline.arrRef spec0 w ≠ r) :
    B5 m ρ c (Proc.devRef .tc r) = m ((c : Thread nD τ).loc r) :=
  calc B5 m ρ c (Proc.devRef .tc r)
    _ = B4 m ρ c (Proc.devRef .tc r) := B5_of m ρ c r h2
    _ = B3 m ρ c (Proc.devRef .tc r) := B4_of_ne m ρ c r hk1
    _ = B2 m ρ c (Proc.devRef .tc r) := B3_of m ρ c r h1
    _ = B1 m ρ c (Proc.devRef .tc r) := B2_of_ne m ρ c r hk0
    _ = B0 m ρ c (Proc.devRef .tc r) := B1_of m ρ c r h0
    _ = m ((c : Thread nD τ).loc r) := rfl
theorem B5_main_arg2 (c : Dev nD) : B5 m ρ c (Proc.devRef .tc main_arg2) = m ((c : Thread nD τ).loc main_arg2) :=
  B5_of_bypass m ρ c main_arg2 (by decide) (by decide) (by decide) (by decide) (by decide)
theorem B5_main_arg3 (c : Dev nD) : B5 m ρ c (Proc.devRef .tc main_arg3) = m ((c : Thread nD τ).loc main_arg3) :=
  B5_of_bypass m ρ c main_arg3 (by decide) (by decide) (by decide) (by decide) (by decide)
theorem B5_main_arg4 (c : Dev nD) : B5 m ρ c (Proc.devRef .tc main_arg4) = m ((c : Thread nD τ).loc main_arg4) :=
  B5_of_bypass m ρ c main_arg4 (by decide) (by decide) (by decide) (by decide) (by decide)

/-- THE FRAME: every weakly fair execution terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- The run with the result named: the result array ends at the last contents' entry for it, the arguments as launched. -/
theorem run_result : θ_run defs (onTc (τ := τ) (main (F := F))) ⟨m, fun _ => 0, ρ⟩ (fun r => ∀ c : Dev nD,
      r.2.mem ((c.tc : Thread nD τ).loc main_v8) = B5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v8 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

end Cert.KernelIdeal.Reg

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.PayRead.lean ====
import proofs.«130676_g11785390260513_cont_main3_35_7_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout
import proofs.«130676_g11785390260513_cont_main3_35_7_alg».proof.Proof.LibMatmulRead
import proofs.«130676_g11785390260513_cont_main3_35_7_alg».proof.Proof.LibColumnLayout

/-! The two kernels' payloads read entry by entry at the exact extended-real values.

    The first call forms the support matrix `x · Wt + b` ([4096,128] times [128,64], plus the bias row) and stores
    its lower half and the transpose of its upper half; rounding to the narrower format is the identity at the exact
    values. The second call, at each of its points, multiplies a block of adjacency rows by the stored lower half
    and scales each row by its degree weight; multiplies the stored transposed block by the adjacency block and
    either starts or extends the running sum; and at the end scales the transposed running sum row by row. Each
    entry of each of these arrays is written here as a sum of products over the contracted coordinate. -/

noncomputable section

namespace Cert.KernelIdeal.PayRead

open Cert.KernelIdeal Cert.KernelIdeal.Gen
open Idealize.ShloMosaic Idealize.ShloMosaic.ValueIdx

/-! ## The second call -/

/-- A block of adjacency rows times the stored lower half, each row scaled by its weight. -/
theorem k1_pay2_apply (v0 : Vec Ideal S512x2048 .f32) (v2 : Vec Ideal S512x1 .f32) (v4 : Vec Ideal S2048x64 .bf16)
    (r : Fin 512) (q : Fin 64) :
    k1_pay2 (F := Ideal) v0 v2 v4 (ix2 r q) = v2 (ix2 r (0 : Fin 1)) * ∑ k : Fin 2048, v0 (ix2 r k) * v4 (ix2 k q) := by
  unfold k1_pay2 k1_pay1
  refine (mulf_apply _ _ _).trans ?_
  refine congrArg₂ (· * ·) ?_ ?_
  · refine (broadcastTo_a1_ab_apply _ _ r q).trans ?_
    exact congrFun (shapeCast_self v2 _) _
  · refine (matmul_ix2_apply _ rfl rfl rfl rfl rfl rfl none _ _ r q).trans ?_
    refine Finset.sum_congr rfl fun k _ => ?_
    exact congrArg (v0 (ix2 r k) * ·) (congrFun (shapeCast_self v4 _) _)

/-- The stored transposed block times the adjacency block. -/
theorem k1_pay3_apply (v0 : Vec Ideal S512x2048 .f32) (v10 : Vec Ideal S64x512 .bf16) (q : Fin 64) (p : Fin 2048) :
    k1_pay3 (F := Ideal) v0 v10 (ix2 q p) = ∑ r : Fin 512, v10 (ix2 q r) * v0 (ix2 r p) := by
  unfold k1_pay3 k1_pay1
  refine (matmul_ix2_apply _ rfl rfl rfl rfl rfl rfl none _ _ q p).trans ?_
  refine Finset.sum_congr rfl fun r _ => ?_
  exact congrArg (· * v0 (ix2 r p)) (congrFun (shapeCast_self v10 _) _)

/-- The running sum started: the product itself. -/
theorem k1_pay4_apply (v0 : Vec Ideal S512x2048 .f32) (v10 : Vec Ideal S64x512 .bf16) (q : Fin 64) (p : Fin 2048) :
    k1_pay4 (F := Ideal) v0 v10 (ix2 q p) = ∑ r : Fin 512, v10 (ix2 q r) * v0 (ix2 r p) := by
  unfold k1_pay4
  refine (congrFun (shapeCast_self _ _) _).trans ?_
  exact k1_pay3_apply v0 v10 q p

/-- The running sum extended: what was there plus the product. -/
theorem k1_pay5_apply (v0 : Vec Ideal S512x2048 .f32) (v10 : Vec Ideal S64x512 .bf16) (v22 : Vec Ideal S64x2048 .f32)
    (q : Fin 64) (p : Fin 2048) :
    k1_pay5 (F := Ideal) v0 v10 v22 (ix2 q p) = v22 (ix2 q p) + ∑ r : Fin 512, v10 (ix2 q r) * v0 (ix2 r p) := by
  unfold k1_pay5
  refine (congrFun (shapeCast_self _ _) _).trans ?_
  refine (addf_apply _ _ _).trans ?_
  exact congrArg (v22 (ix2 q p) + ·) (k1_pay3_apply v0 v10 q p)

/-- The transposed running sum, each row scaled by its weight. -/
theorem k1_pay6_apply (v22 : Vec Ideal S2048x1 .f32) (v24 : Vec Ideal S64x2048 .f32) (p : Fin 2048) (q : Fin 64) :
    k1_pay6 (F := Ideal) v22 v24 (ix2 p q) = v22 (ix2 p (0 : Fin 1)) * v24 (ix2 q p) := by
  unfold k1_pay6
  refine (mulf_apply _ _ _).trans ?_
  refine congrArg₂ (· * ·) ?_ ?_
  · refine (broadcastTo_a1_ab_apply _ _ p q).trans ?_
    exact congrFun (shapeCast_self v22 _) _
  · exact transpose_ab_ba_apply v24 _ p q

/-! ## The first call -/

/-- The support matrix: the product plus the bias row. -/
theorem k0_pay1_apply (v0 : Vec Ideal S4096x128 .f32) (v1 : Vec Ideal S128x64 .f32) (v4 : Vec Ideal S1x64 .f32)
    (r : Fin 4096) (q : Fin 64) :
    k0_pay1 (F := Ideal) v0 v1 v4 (ix2 r q) = (∑ d : Fin 128, v0 (ix2 r d) * v1 (ix2 d q)) + v4 (ix2 (0 : Fin 1) q) := by
  unfold k0_pay1
  refine (addf_apply _ _ _).trans ?_
  refine congrArg₂ (· + ·) ?_ ?_
  · refine (matmul_ix2_apply _ rfl rfl rfl rfl rfl rfl none _ _ r q).trans ?_
    refine Finset.sum_congr rfl fun d _ => ?_
    exact congrArg (v0 (ix2 r d) * ·) (congrFun (shapeCast_self v1 _) _)
  · refine (broadcastTo_1b_ab_apply _ _ r q).trans ?_
    exact congrFun (shapeCast_self v4 _) _

/-- Its lower half: rows 2048 on. -/
theorem k0_pay2_apply (v0 : Vec Ideal S4096x128 .f32) (v1 : Vec Ideal S128x64 .f32) (v4 : Vec Ideal S1x64 .f32)
    (p : Fin 2048) (q : Fin 64) :
    k0_pay2 (F := Ideal) v0 v1 v4 (ix2 p q)
      = (∑ d : Fin 128, v0 (ix2 (⟨2048 + p.val, by omega⟩ : Fin 4096) d) * v1 (ix2 d q)) + v4 (ix2 (0 : Fin 1) q) := by
  unfold k0_pay2
  refine (truncf_apply (ψ := .bf16) (φ := .f32) _ _ _).trans ?_
  refine (slice2_axis0_apply 2048 _ _ p q (⟨2048 + p.val, by omega⟩ : Fin 4096) rfl).trans ?_
  exact k0_pay1_apply v0 v1 v4 _ q

/-- The transpose of its upper half: rows below 2048, read across. -/
theorem k0_pay3_apply (v0 : Vec Ideal S4096x128 .f32) (v1 : Vec Ideal S128x64 .f32) (v4 : Vec Ideal S1x64 .f32)
    (q : Fin 64) (p : Fin 2048) :
    k0_pay3 (F := Ideal) v0 v1 v4 (ix2 q p)
      = (∑ d : Fin 128, v0 (ix2 (⟨p.val, by omega⟩ : Fin 4096) d) * v1 (ix2 d q)) + v4 (ix2 (0 : Fin 1) q) := by
  unfold k0_pay3
  refine (truncf_apply (ψ := .bf16) (φ := .f32) _ _ _).trans ?_
  refine (transpose_ab_ba_apply _ _ q p).trans ?_
  refine (slice2_axis0_apply 0 _ _ p q (⟨p.val, by omega⟩ : Fin 4096) (Nat.zero_add _).symm).trans ?_
  exact k0_pay1_apply v0 v1 v4 _ q

end Cert.KernelIdeal.PayRead

end
-- ==== Proof.KI.Val0.lean ====
import proofs.«130676_g11785390260513_cont_main3_35_7_alg».proof.Proof.KI.Reg0
import proofs.«130676_g11785390260513_cont_main3_35_7_alg».proof.Proof.KI.PayRead
import Idealize.ShloMosaic.Lib.Pipeline.Value
import Idealize.ShloMosaic.Lib.ValueIdx

/-! Region 0's two output arrays after its run, read entry by entry at the exact extended-real values, for any
    contents `V` of the buffers when the region is entered. The call has one point and every window's block there
    is its whole array: each input block is the input array, and what the point writes back is the whole output
    array. So the lower-half output holds rows 2048 on of `x · Wt + b`, and the other output holds the transpose
    of rows below 2048. -/

set_option maxRecDepth 16384

noncomputable section

namespace Cert.KernelIdeal.Reg

open Cert.KernelIdeal Cert.KernelIdeal.Gen Cert.KernelIdeal.PayRead
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## Each input block is its array -/

/-- Window 0's block at the one point is its whole array. -/
theorem iblk0_0_eq (c : Dev nD) (t : Fin cfg0.N) :
    (iblk0 V c 0 t : S4096x128.Idx → EReal) = (V c main_arg0 : S4096x128.Idx → EReal) := by
  obtain rfl := fin_N0 t
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V c main_arg0)

/-- Window 1's block at the one point is its whole array. -/
theorem iblk0_1_eq (c : Dev nD) (t : Fin cfg0.N) :
    (iblk0 V c 1 t : S128x64.Idx → EReal) = (V c main_v0 : S128x64.Idx → EReal) := by
  obtain rfl := fin_N0 t
  have hz' : (fun a => win0_1.index t0_0 a * main_v0.ty.shape.size a) = fun _ => 0 := funext fun a => by fin_cases a <;> decide
  exact Memref.read_access_unit_zero (Elt Ideal) main_v0 hz' (fun a => by rw [congrFun hz' a]; simp) (V c main_v0)

/-- Window 2's block at the one point is its whole array. -/
theorem iblk0_2_eq (c : Dev nD) (t : Fin cfg0.N) :
    (iblk0 V c 2 t : S1x64.Idx → EReal) = (V c main_v1 : S1x64.Idx → EReal) := by
  obtain rfl := fin_N0 t
  have hz' : (fun a => win0_2.index t0_0 a * main_v1.ty.shape.size a) = fun _ => 0 := funext fun a => by fin_cases a <;> decide
  exact Memref.read_access_unit_zero (Elt Ideal) main_v1 hz' (fun a => by rw [congrFun hz' a]; simp) (V c main_v1)

/-! ## The output arrays as functions of the entry contents -/

/-- The lower-half output array: the first store's payload at the three input arrays. -/
def sup2Arr (c : Dev nD) : Buf (Elt Ideal) ((c : Thread nD τ).loc main_v2_0) :=
  k0_pay2 (F := Ideal) (V c main_arg0 : S4096x128.Idx → EReal) (V c main_v0 : S128x64.Idx → EReal) (V c main_v1 : S1x64.Idx → EReal)

/-- The transposed upper-half output array: the second store's payload at the three input arrays. -/
def sup1tArr (c : Dev nD) : Buf (Elt Ideal) ((c : Thread nD τ).loc main_v2_1) :=
  k0_pay3 (F := Ideal) (V c main_arg0 : S4096x128.Idx → EReal) (V c main_v0 : S128x64.Idx → EReal) (V c main_v1 : S1x64.Idx → EReal)

/-! ## What the point writes back -/

/-- The write-back of window 3 writes `sup2Arr`: its block is the whole array. -/
theorem flushed0_3_eq (c : Dev nD) (t : Fin cfg0.N) :
    (dat0 V c).flushed 3 t = ((cfg0.win 3).blk t).view.read (Elt Ideal) (sup2Arr V c) := by
  obtain rfl := fin_N0 t
  show (cfg0.win 3).cut (grid0.coords t0_0) ((dat0 V c).after 3 t0_0) = _
  rw [after0_3, out0_3_eq, iblk0_0_eq, iblk0_1_eq, iblk0_2_eq]
  have hz' : (fun a => win0_3.index t0_0 a * main_v2_0.ty.shape.size a) = fun _ => 0 := funext fun a => by fin_cases a <;> decide
  exact (Memref.read_access_unit_zero (Elt Ideal) main_v2_0 hz' (fun a => by rw [congrFun hz' a]; simp) (sup2Arr V c)).symm

/-- The write-back of window 4 writes `sup1tArr`: its block is the whole array. -/
theorem flushed0_4_eq (c : Dev nD) (t : Fin cfg0.N) :
    (dat0 V c).flushed 4 t = ((cfg0.win 4).blk t).view.read (Elt Ideal) (sup1tArr V c) := by
  obtain rfl := fin_N0 t
  show (cfg0.win 4).cut (grid0.coords t0_0) ((dat0 V c).after 4 t0_0) = _
  rw [after0_4, out0_4_eq, iblk0_0_eq, iblk0_1_eq, iblk0_2_eq]
  have hz' : (fun a => win0_4.index t0_0 a * main_v2_1.ty.shape.size a) = fun _ => 0 := funext fun a => by fin_cases a <;> decide
  exact (Memref.read_access_unit_zero (Elt Ideal) main_v2_1 hz' (fun a => by rw [congrFun hz' a]; simp) (sup1tArr V c)).symm

/-! ## The arrays after the run -/

/-- The one point's block covers the array, so the lower-half output array ends holding `sup2Arr`. -/
theorem final0_3 (c : Dev nD) : (dat0 V c).arrAt 3 cfg0.N = sup2Arr V c :=
  (dat0 V c).arrAt_eq_of_cover 3 (sup2Arr V c) (fun t _ => flushed0_3_eq V c t) fun i =>
    ⟨t0_0, flush0_3 t0_0, by
      show i ∈ ((View.whole main_v2_0).slice (win0_3.rect t0_0)).set
      rw [View.set_slice_whole, Rect.mem_set_unit]
      intro a
      have h0 : (i 0 : Nat) < 2048 := (i 0).isLt
      have h1 : (i 1 : Nat) < 64 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 2048 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 64 from by decide +kernel]; omega⟩

/-- The one point's block covers the array, so the other output array ends holding `sup1tArr`. -/
theorem final0_4 (c : Dev nD) : (dat0 V c).arrAt 4 cfg0.N = sup1tArr V c :=
  (dat0 V c).arrAt_eq_of_cover 4 (sup1tArr V c) (fun t _ => flushed0_4_eq V c t) fun i =>
    ⟨t0_0, flush0_4 t0_0, by
      show i ∈ ((View.whole main_v2_1).slice (win0_4.rect t0_0)).set
      rw [View.set_slice_whole, Rect.mem_set_unit]
      intro a
      have h0 : (i 0 : Nat) < 64 := (i 0).isLt
      have h1 : (i 1 : Nat) < 2048 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 64 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 2048 from by decide +kernel]; omega⟩

/-! ## Entry by entry -/

/-- Row `r` of a [4096,128] matrix against column `q` of a [128,64] matrix, plus entry `q` of a [1,64] row:
    the support matrix `x · Wt + b` at `(r, q)`. -/
abbrev rowDot (x0 : S4096x128.Idx → EReal) (x1 : S128x64.Idx → EReal) (x2 : S1x64.Idx → EReal) (r : Fin 4096) (q : Fin 64) : EReal :=
  (∑ d : Fin 128, x0 (ix2 r d) * x1 (ix2 d q)) + x2 (ix2 (0 : Fin 1) q)

/-- The lower-half output at `(p, q)`: row `2048 + p` of `x` against column `q` of `Wt`, plus the bias at `q`. -/
theorem sup2_apply (c : Dev nD) (p : Fin 2048) (q : Fin 64) :
    ((dat0 V c).arrAt 3 cfg0.N : S2048x64.Idx → EReal) (ix2 p q)
      = rowDot (V c main_arg0) (V c main_v0) (V c main_v1) (⟨2048 + p.val, by have := p.isLt; omega⟩ : Fin 4096) q := by
  rw [final0_3]
  exact k0_pay2_apply _ _ _ p q

/-- The transposed output at `(q, p)`: row `p` of `x` against column `q` of `Wt`, plus the bias at `q`. -/
theorem sup1t_apply (c : Dev nD) (q : Fin 64) (p : Fin 2048) :
    ((dat0 V c).arrAt 4 cfg0.N : S64x2048.Idx → EReal) (ix2 q p)
      = rowDot (V c main_arg0) (V c main_v0) (V c main_v1) (⟨p.val, by have := p.isLt; omega⟩ : Fin 4096) q := by
  rw [final0_4]
  exact k0_pay3_apply _ _ _ q p

/-- The same with the three input arrays named: for any matrices the entry contents are known to equal. -/
theorem sup2_apply_of (c : Dev nD) (x0 : S4096x128.Idx → EReal) (x1 : S128x64.Idx → EReal) (x2 : S1x64.Idx → EReal)
    (h0 : V c main_arg0 = x0) (h1 : V c main_v0 = x1) (h2 : V c main_v1 = x2) (p : Fin 2048) (q : Fin 64) :
    ((dat0 V c).arrAt 3 cfg0.N : S2048x64.Idx → EReal) (ix2 p q)
      = (∑ d : Fin 128, x0 (ix2 (⟨2048 + p.val, by have := p.isLt; omega⟩ : Fin 4096) d) * x1 (ix2 d q)) + x2 (ix2 (0 : Fin 1) q) := by
  subst h0 h1 h2
  exact sup2_apply V c p q

/-- The same for the transposed output. -/
theorem sup1t_apply_of (c : Dev nD) (x0 : S4096x128.Idx → EReal) (x1 : S128x64.Idx → EReal) (x2 : S1x64.Idx → EReal)
    (h0 : V c main_arg0 = x0) (h1 : V c main_v0 = x1) (h2 : V c main_v1 = x2) (q : Fin 64) (p : Fin 2048) :
    ((dat0 V c).arrAt 4 cfg0.N : S64x2048.Idx → EReal) (ix2 q p)
      = (∑ d : Fin 128, x0 (ix2 (⟨p.val, by have := p.isLt; omega⟩ : Fin 4096) d) * x1 (ix2 d q)) + x2 (ix2 (0 : Fin 1) q) := by
  subst h0 h1 h2
  exact sup1t_apply V c q p

end Cert.KernelIdeal.Reg

end
-- ==== Proof.SumBlocks.lean ====
/-
  A sum over 2048 indices read as four consecutive blocks of 512, added from the left: the way an accumulator that
  receives one block of 512 rows at a time adds them up.
-/
import Mathlib.Algebra.BigOperators.Fin

open scoped BigOperators

namespace Cert.Gcn

/-- A sum over `Fin (a + b)` is the sum over the first `a` indices plus the sum over the last `b`, with the
indices written by their values. -/
theorem sum_split {M : Type*} [AddCommMonoid M] (a b : ℕ) (g : Fin (a + b) → M) :
    (∑ r : Fin a, g ⟨r.val, by have := r.isLt; omega⟩) + (∑ r : Fin b, g ⟨a + r.val, by have := r.isLt; omega⟩)
      = ∑ r : Fin (a + b), g r := by
  rw [Fin.sum_univ_add]
  rfl

/-- Four blocks of 512 consecutive indices, added from the left, exhaust `Fin 2048`. -/
theorem sum_four_blocks {M : Type*} [AddCommMonoid M] (g : Fin 2048 → M) :
    ((∑ r : Fin 512, g ⟨r.val, by have := r.isLt; omega⟩)
        + (∑ r : Fin 512, g ⟨512 + r.val, by have := r.isLt; omega⟩))
      + (∑ r : Fin 512, g ⟨1024 + r.val, by have := r.isLt; omega⟩)
      + (∑ r : Fin 512, g ⟨1536 + r.val, by have := r.isLt; omega⟩)
      = ∑ r : Fin 2048, g r := by
  rw [← sum_split 1536 512 g, ← sum_split 1024 512 (fun r : Fin (1024 + 512) => g ⟨r.val, by have := r.isLt; omega⟩),
    ← sum_split 512 512 (fun r : Fin (512 + 512) => g ⟨r.val, by have := r.isLt; omega⟩)]

end Cert.Gcn
-- ==== Proof.KI.Val1.lean ====
/-
  The aggregation call's two output arrays, entry by entry, at the exact extended-real values.

  The call runs over four points; point `t` sees rows `512 t … 512 t + 511` of the adjacency, the matching rows of the
  first degree column and the matching columns of the transposed first-half support, and the whole second-half support and
  second degree column. The first output's block at point `t` is those adjacency rows against the second-half support,
  each row scaled by its weight; the four blocks tile the output. The second output is written once, after the last
  point, from an accumulator that has by then added the four points' products of the transposed-support block with the
  adjacency block: four sums over 512 rows each, which together are the sum over all 2048 rows.
-/
import proofs.«130676_g11785390260513_cont_main3_35_7_alg».proof.Proof.KI.Reg1Defs
import proofs.«130676_g11785390260513_cont_main3_35_7_alg».proof.Proof.KI.PayRead
import proofs.«130676_g11785390260513_cont_main3_35_7_alg».proof.Proof.SumBlocks
import Idealize.ShloMosaic.Lib.Pipeline.Value
import Idealize.ShloMosaic.Lib.ValueIdx

set_option maxRecDepth 16384
noncomputable section
namespace Cert.KernelIdeal.Reg
open Cert.KernelIdeal Cert.KernelIdeal.Gen Cert.KernelIdeal.PayRead
open Idealize.ShloMosaic Idealize.ShloMosaic.TcCoe Idealize.ShloMosaic.ValueIdx
open Idealize.SL.Sem
open Idealize.ShloMosaic.Pipeline (Dat Cfg Window)
open scoped BigOperators
variable (V : (c : Dev nD) → (b : Ref sig .tc) → Buf (Elt Ideal) ((c : Thread nD τ).loc b))

/-- An array's contents as a function from the indices of its literal shape into the extended reals. -/
abbrev ereal {s : Shape} (f : s.Idx → EReal) : s.Idx → EReal := f

/-! ## The windows' blocks, entry by entry

A block's entry sits in its array, on each axis, at the block index times the block's extent plus the coordinate
inside the block. -/

/-- The grid has four points. -/
theorem point_lt (t : Fin cfg1.N) : t.val < 4 := Nat.lt_of_lt_of_eq t.isLt N_1

/-- The adjacency window's block at point `t` is rows `512 t …` of the adjacency. -/
theorem iblk1_0_apply (c : Dev nD) (t : Fin cfg1.N) (x : S512x2048.Idx) (k : S2048x2048.Idx)
    (hk0 : (k 0).val = 512 * t.val + (x 0).val) (hk1 : (k 1).val = (x 1).val) :
    ereal (s := S512x2048) (iblk1 V c 0 t) x = ereal (s := S2048x2048) (V c main_arg1) k := by
  have hi := (by decide +kernel : ∀ t : Fin grid1.N, win1_0.index t 0 = t.val ∧ win1_0.index t 1 = 0) t
  show iblk1 V c 0 t x = V c main_arg1 k
  unfold iblk1
  rw [View.read_apply]
  show V c main_arg1 _ = V c main_arg1 _
  congr 1
  funext a
  apply Fin.ext
  match a with
  | ⟨0, _⟩ => show win1_0.index t 0 * 512 + 1 * (x 0).val = (k 0).val; rw [hi.1, hk0]; omega
  | ⟨1, _⟩ => show win1_0.index t 1 * 2048 + 1 * (x 1).val = (k 1).val; rw [hi.2, hk1]; omega

/-- The transposed-support window's block at point `t` is columns `512 t …` of that array. -/
theorem iblk1_1_apply (c : Dev nD) (t : Fin cfg1.N) (x : S64x512.Idx) (k : S64x2048.Idx)
    (hk0 : (k 0).val = (x 0).val) (hk1 : (k 1).val = 512 * t.val + (x 1).val) :
    ereal (s := S64x512) (iblk1 V c 1 t) x = ereal (s := S64x2048) (V c main_v2_1) k := by
  have hi := (by decide +kernel : ∀ t : Fin grid1.N, win1_1.index t 0 = 0 ∧ win1_1.index t 1 = t.val) t
  show iblk1 V c 1 t x = V c main_v2_1 k
  unfold iblk1
  rw [View.read_apply]
  show V c main_v2_1 _ = V c main_v2_1 _
  congr 1
  funext a
  apply Fin.ext
  match a with
  | ⟨0, _⟩ => show win1_1.index t 0 * 64 + 1 * (x 0).val = (k 0).val; rw [hi.1, hk0]; omega
  | ⟨1, _⟩ => show win1_1.index t 1 * 512 + 1 * (x 1).val = (k 1).val; rw [hi.2, hk1]; omega

/-- The support window's block is the whole array at every point. -/
theorem iblk1_2_apply (c : Dev nD) (t : Fin cfg1.N) (x : S2048x64.Idx) :
    ereal (s := S2048x64) (iblk1 V c 2 t) x = ereal (s := S2048x64) (V c main_v2_0) x := by
  have hi := (by decide +kernel : ∀ t : Fin grid1.N, win1_2.index t 0 = 0 ∧ win1_2.index t 1 = 0) t
  show iblk1 V c 2 t x = V c main_v2_0 x
  unfold iblk1
  rw [View.read_apply]
  show V c main_v2_0 _ = V c main_v2_0 _
  congr 1
  funext a
  apply Fin.ext
  match a with
  | ⟨0, _⟩ => show win1_2.index t 0 * 2048 + 1 * (x 0).val = (x 0).val; rw [hi.1]; omega
  | ⟨1, _⟩ => show win1_2.index t 1 * 64 + 1 * (x 1).val = (x 1).val; rw [hi.2]; omega

/-- The first degree column's block at point `t` is rows `512 t …` of that column. -/
theorem iblk1_3_apply (c : Dev nD) (t : Fin cfg1.N) (x : S512x1.Idx) (k : S2048x1.Idx)
    (hk0 : (k 0).val = 512 * t.val + (x 0).val) (hk1 : (k 1).val = (x 1).val) :
    ereal (s := S512x1) (iblk1 V c 3 t) x = ereal (s := S2048x1) (V c main_v4) k := by
  have hi := (by decide +kernel : ∀ t : Fin grid1.N, win1_3.index t 0 = t.val ∧ win1_3.index t 1 = 0) t
  show iblk1 V c 3 t x = V c main_v4 k
  unfold iblk1
  rw [View.read_apply]
  show V c main_v4 _ = V c main_v4 _
  congr 1
  funext a
  apply Fin.ext
  match a with
  | ⟨0, _⟩ => show win1_3.index t 0 * 512 + 1 * (x 0).val = (k 0).val; rw [hi.1, hk0]; omega
  | ⟨1, _⟩ => show win1_3.index t 1 * 1 + 1 * (x 1).val = (k 1).val; rw [hi.2, hk1]; omega

/-- The second degree column's block is the whole column at every point. -/
theorem iblk1_4_apply (c : Dev nD) (t : Fin cfg1.N) (x : S2048x1.Idx) :
    ereal (s := S2048x1) (iblk1 V c 4 t) x = ereal (s := S2048x1) (V c main_v6) x := by
  have hi := (by decide +kernel : ∀ t : Fin grid1.N, win1_4.index t 0 = 0 ∧ win1_4.index t 1 = 0) t
  show iblk1 V c 4 t x = V c main_v6 x
  unfold iblk1
  rw [View.read_apply]
  show V c main_v6 _ = V c main_v6 _
  congr 1
  funext a
  apply Fin.ext
  match a with
  | ⟨0, _⟩ => show win1_4.index t 0 * 2048 + 1 * (x 0).val = (x 0).val; rw [hi.1]; omega
  | ⟨1, _⟩ => show win1_4.index t 1 * 1 + 1 * (x 1).val = (x 1).val; rw [hi.2]; omega

/-! ## The first output -/

/-- Entry `(i, h)` of the first output as the arrays give it: node `i`'s weight times row `i` of the adjacency
    against column `h` of the second half's support. -/
def topVal (c : Dev nD) (i : Fin 2048) (h : Fin 64) : EReal :=
  ereal (s := S2048x1) (V c main_v4) (ix2 i (0 : Fin 1))
    * ∑ k : Fin 2048, ereal (s := S2048x2048) (V c main_arg1) (ix2 i k) * ereal (s := S2048x64) (V c main_v2_0) (ix2 k h)

/-- The first output as one array. -/
def topArr (c : Dev nD) : S2048x64.Idx → EReal :=
  fun j => topVal V c ⟨(j 0).val, idx2_lt0 j⟩ ⟨(j 1).val, idx2_lt1 j⟩

theorem topArr_apply (c : Dev nD) (j : S2048x64.Idx) (i : Fin 2048) (h : Fin 64) (h0 : (j 0).val = i.val)
    (h1 : (j 1).val = h.val) : topArr V c j = topVal V c i h := by
  unfold topArr
  congr 1 <;> exact Fin.ext (by assumption)

/-- What point `t` writes back into the first output is block `t` of that array: rows `512 t …`. -/
theorem flushed1_5 (c : Dev nD) (t : Fin cfg1.N) :
    (dat1 V c).flushed 5 t = ((cfg1.win 5).blk t).view.read (Elt Ideal) (topArr V c) := by
  have hi := (by decide +kernel : ∀ t : Fin grid1.N, win1_5.index t 0 = t.val ∧ win1_5.index t 1 = 0) t
  have ht := point_lt t
  show (cfg1.win 5).cut (grid1.coords t) ((dat1 V c).after 5 t) = _
  rw [after1_5]
  funext y
  obtain ⟨r, q, rfl⟩ : ∃ (r : Fin 512) (q : Fin 64), y = ix2 r q := ⟨y 0, y 1, eq_ix2 y⟩
  rw [View.read_apply]
  show k1_pay2 (F := Ideal) (iblk1 V c 0 t) (iblk1 V c 3 t) (iblk1 V c 2 t) (ix2 r q) = topArr V c _
  have hr := r.isLt
  refine ((k1_pay2_apply _ _ _ r q).trans ?_).trans
    (topArr_apply V c _ (⟨512 * t.val + r.val, by omega⟩ : Fin 2048) q ?_ ?_).symm
  · unfold topVal
    refine congrArg₂ (· * ·) (iblk1_3_apply V c t _ _ rfl rfl) (Finset.sum_congr rfl fun k _ => ?_)
    exact congrArg₂ (· * ·) (iblk1_0_apply V c t _ _ rfl rfl) (iblk1_2_apply V c t _)
  · show win1_5.index t 0 * 512 + 1 * r.val = 512 * t.val + r.val
    rw [hi.1]; omega
  · show win1_5.index t 1 * 64 + 1 * q.val = q.val
    rw [hi.2]; omega

/-- The four points' blocks tile the first output, so it ends holding that array. -/
theorem top_arr (c : Dev nD) : (dat1 V c).arrAt 5 cfg1.N = topArr V c :=
  (dat1 V c).arrAt_eq_of_cover 5 (topArr V c) (fun t _ => flushed1_5 V c t) fun i => by
    have h0 : (i 0 : Nat) < 2048 := (i 0).isLt
    have h1 : (i 1 : Nat) < 64 := (i 1).isLt
    have hN : cfg1.N = 4 := N_1
    let tt : Fin cfg1.N := ⟨(i 0 : Nat) / 512, by rw [hN]; omega⟩
    have hi := (by decide +kernel : ∀ t : Fin grid1.N, win1_5.index t 0 = t.val ∧ win1_5.index t 1 = 0) tt
    refine ⟨tt, flush1_5 tt, ?_⟩
    show i ∈ ((View.whole main_v7_0).slice (win1_5.rect tt)).set
    rw [View.set_slice_whole, Rect.mem_set_unit]
    intro a
    match a with
    | ⟨0, _⟩ =>
      show win1_5.index tt 0 * 512 ≤ (i 0 : Nat) ∧ (i 0 : Nat) < win1_5.index tt 0 * 512 + 512
      rw [hi.1]; show (i 0 : Nat) / 512 * 512 ≤ (i 0 : Nat) ∧ (i 0 : Nat) < (i 0 : Nat) / 512 * 512 + 512
      omega
    | ⟨1, _⟩ =>
      show win1_5.index tt 1 * 64 ≤ (i 1 : Nat) ∧ (i 1 : Nat) < win1_5.index tt 1 * 64 + 64
      rw [hi.2]; omega

/-- THE FIRST OUTPUT, entry by entry. -/
theorem top_apply (c : Dev nD) (i : Fin 2048) (h : Fin 64) :
    ereal (s := S2048x64) ((dat1 V c).arrAt 5 cfg1.N) (ix2 i h)
      = ereal (s := S2048x1) (V c main_v4) (ix2 i (0 : Fin 1))
        * ∑ k : Fin 2048, ereal (s := S2048x2048) (V c main_arg1) (ix2 i k) * ereal (s := S2048x64) (V c main_v2_0) (ix2 k h) := by
  rw [top_arr]
  rfl

/-! ## The carried accumulator -/

/-- One point's product at an entry: the transposed-support block against the adjacency block. -/
def accTerm (c : Dev nD) (t : Fin cfg1.N) (h : Fin 64) (p : Fin 2048) : EReal :=
  ∑ r : Fin 512, ereal (s := S64x512) (iblk1 V c 1 t) (ix2 h r) * ereal (s := S512x2048) (iblk1 V c 0 t) (ix2 r p)

/-- The first point stores its product. -/
theorem acc1_zero_apply (c : Dev nD) (hn : 0 < cfg1.N) (h : Fin 64) (p : Fin 2048) :
    ereal (s := S64x2048) (acc1 V c 0 hn) (ix2 h p) = accTerm V c ⟨0, hn⟩ h p :=
  k1_pay4_apply _ _ h p

/-- Every later point adds its product to what the point before left. -/
theorem acc1_succ_apply (c : Dev nD) (n : ℕ) (hn : n + 1 < cfg1.N) (h : Fin 64) (p : Fin 2048) :
    ereal (s := S64x2048) (acc1 V c (n + 1) hn) (ix2 h p)
      = ereal (s := S64x2048) (acc1 V c n (Nat.lt_of_succ_lt hn)) (ix2 h p) + accTerm V c ⟨n + 1, hn⟩ h p :=
  k1_pay5_apply _ _ _ h p

/-- One point's product, with its blocks read off the arrays: rows `f r = 512 t + r`. -/
theorem accTerm_eq (c : Dev nD) (t : Fin cfg1.N) (f : Fin 512 → Fin 2048) (hf : ∀ r, (f r).val = 512 * t.val + r.val)
    (h : Fin 64) (p : Fin 2048) :
    accTerm V c t h p
      = ∑ r : Fin 512, ereal (s := S64x2048) (V c main_v2_1) (ix2 h (f r)) * ereal (s := S2048x2048) (V c main_arg1) (ix2 (f r) p) :=
  Finset.sum_congr rfl fun r _ =>
    congrArg₂ (· * ·) (iblk1_1_apply V c t _ _ rfl (hf r)) (iblk1_0_apply V c t _ _ (hf r) rfl)

/-- After the last point the accumulator holds the whole contraction over the 2048 first-half nodes. -/
theorem acc1_last_apply (c : Dev nD) (h3 : 3 < cfg1.N) (h : Fin 64) (p : Fin 2048) :
    ereal (s := S64x2048) (acc1 V c 3 h3) (ix2 h p)
      = ∑ r : Fin 2048, ereal (s := S64x2048) (V c main_v2_1) (ix2 h r) * ereal (s := S2048x2048) (V c main_arg1) (ix2 r p) := by
  rw [acc1_succ_apply V c 2 h3 h p, acc1_succ_apply V c 1 _ h p, acc1_succ_apply V c 0 _ h p, acc1_zero_apply V c _ h p]
  rw [accTerm_eq V c ⟨0, _⟩ (fun r => ⟨r.val, by have := r.isLt; omega⟩) (fun r => by show r.val = 512 * 0 + r.val; omega) h p,
    accTerm_eq V c ⟨0 + 1, _⟩ (fun r => ⟨512 + r.val, by have := r.isLt; omega⟩) (fun r => by show 512 + r.val = 512 * (0 + 1) + r.val; omega) h p,
    accTerm_eq V c ⟨1 + 1, _⟩ (fun r => ⟨1024 + r.val, by have := r.isLt; omega⟩) (fun r => by show 1024 + r.val = 512 * (1 + 1) + r.val; omega) h p,
    accTerm_eq V c ⟨2 + 1, _⟩ (fun r => ⟨1536 + r.val, by have := r.isLt; omega⟩) (fun r => by show 1536 + r.val = 512 * (2 + 1) + r.val; omega) h p]
  exact Cert.Gcn.sum_four_blocks
    (fun r : Fin 2048 => ereal (s := S64x2048) (V c main_v2_1) (ix2 h r) * ereal (s := S2048x2048) (V c main_arg1) (ix2 r p))

/-! ## The second output -/

/-- Entry `(p, h)` of the second output as the arrays give it: node `p`'s weight times row `h` of the transposed
    first-half support against column `p` of the adjacency. -/
def botVal (c : Dev nD) (p : Fin 2048) (h : Fin 64) : EReal :=
  ereal (s := S2048x1) (V c main_v6) (ix2 p (0 : Fin 1))
    * ∑ r : Fin 2048, ereal (s := S64x2048) (V c main_v2_1) (ix2 h r) * ereal (s := S2048x2048) (V c main_arg1) (ix2 r p)

/-- The second output as one array. -/
def botArr (c : Dev nD) : S2048x64.Idx → EReal :=
  fun j => botVal V c ⟨(j 0).val, idx2_lt0 j⟩ ⟨(j 1).val, idx2_lt1 j⟩

theorem botArr_apply (c : Dev nD) (j : S2048x64.Idx) (p : Fin 2048) (h : Fin 64) (h0 : (j 0).val = p.val)
    (h1 : (j 1).val = h.val) : botArr V c j = botVal V c p h := by
  unfold botArr
  congr 1 <;> exact Fin.ext (by assumption)

/-- The one write-back of the second output, at the last point, writes that array: its block is the whole array. -/
theorem flushed1_6 (c : Dev nD) (t : Fin cfg1.N) (hf : (cfg1.win 6).flush t = true) :
    (dat1 V c).flushed 6 t = ((cfg1.win 6).blk t).view.read (Elt Ideal) (botArr V c) := by
  have hi := (by decide +kernel : ∀ t : Fin grid1.N, win1_6.index t 0 = 0 ∧ win1_6.index t 1 = 0) t
  have h3 : t.val = 3 := by have := (flush1_6 t).mp hf; have := point_lt t; omega
  show (cfg1.win 6).cut (grid1.coords t) ((dat1 V c).after 6 t) = _
  rw [after1_6]
  funext y
  obtain ⟨p, q, rfl⟩ : ∃ (p : Fin 2048) (q : Fin 64), y = ix2 p q := ⟨y 0, y 1, eq_ix2 y⟩
  rw [View.read_apply]
  show k1_pay6 (F := Ideal) (iblk1 V c 4 t) (acc1 V c t.val t.isLt) (ix2 p q) = botArr V c _
  refine ((k1_pay6_apply _ _ p q).trans ?_).trans (botArr_apply V c _ p q ?_ ?_).symm
  · unfold botVal
    refine congrArg₂ (· * ·) (iblk1_4_apply V c t _) ?_
    obtain ⟨n, hn⟩ := t
    change n = 3 at h3
    subst h3
    exact acc1_last_apply V c hn q p
  · show win1_6.index t 0 * 2048 + 1 * p.val = p.val
    rw [hi.1]; omega
  · show win1_6.index t 1 * 64 + 1 * q.val = q.val
    rw [hi.2]; omega

/-- The last point's block covers the second output, so it ends holding that array. -/
theorem bot_arr (c : Dev nD) : (dat1 V c).arrAt 6 cfg1.N = botArr V c :=
  (dat1 V c).arrAt_eq_of_cover 6 (botArr V c) (flushed1_6 V c) fun i => by
    have h0 : (i 0 : Nat) < 2048 := (i 0).isLt
    have h1 : (i 1 : Nat) < 64 := (i 1).isLt
    have hi := (by decide +kernel : ∀ t : Fin grid1.N, win1_6.index t 0 = 0 ∧ win1_6.index t 1 = 0) t1_3
    refine ⟨t1_3, (flush1_6 t1_3).mpr rfl, ?_⟩
    show i ∈ ((View.whole main_v7_1).slice (win1_6.rect t1_3)).set
    rw [View.set_slice_whole, Rect.mem_set_unit]
    intro a
    match a with
    | ⟨0, _⟩ =>
      show win1_6.index t1_3 0 * 2048 ≤ (i 0 : Nat) ∧ (i 0 : Nat) < win1_6.index t1_3 0 * 2048 + 2048
      rw [hi.1]; omega
    | ⟨1, _⟩ =>
      show win1_6.index t1_3 1 * 64 ≤ (i 1 : Nat) ∧ (i 1 : Nat) < win1_6.index t1_3 1 * 64 + 64
      rw [hi.2]; omega

/-- THE SECOND OUTPUT, entry by entry. -/
theorem bot_apply (c : Dev nD) (p : Fin 2048) (h : Fin 64) :
    ereal (s := S2048x64) ((dat1 V c).arrAt 6 cfg1.N) (ix2 p h)
      = ereal (s := S2048x1) (V c main_v6) (ix2 p (0 : Fin 1))
        * ∑ r : Fin 2048, ereal (s := S64x2048) (V c main_v2_1) (ix2 h r) * ereal (s := S2048x2048) (V c main_arg1) (ix2 r p) := by
  rw [bot_arr]
  rfl

/-! ## The two outputs over named arrays -/

/-- The first output, entry by entry, with the three arrays it reads given by name. -/
theorem top_apply_of (c : Dev nD) (a : S2048x2048.Idx → EReal) (s2 : S2048x64.Idx → EReal) (d1 : S2048x1.Idx → EReal)
    (ha : V c main_arg1 = a) (hs2 : V c main_v2_0 = s2) (hd1 : V c main_v4 = d1) (i : Fin 2048) (h : Fin 64) :
    ((dat1 V c).arrAt 5 cfg1.N : S2048x64.Idx → EReal) (ix2 i h)
      = d1 (ix2 i (0 : Fin 1)) * ∑ k : Fin 2048, a (ix2 i k) * s2 (ix2 k h) := by
  subst ha hs2 hd1
  exact top_apply V c i h

/-- The second output, entry by entry, with the three arrays it reads given by name. -/
theorem bot_apply_of (c : Dev nD) (a : S2048x2048.Idx → EReal) (s1t : S64x2048.Idx → EReal) (d2 : S2048x1.Idx → EReal)
    (ha : V c main_arg1 = a) (hs : V c main_v2_1 = s1t) (hd2 : V c main_v6 = d2) (p : Fin 2048) (h : Fin 64) :
    ((dat1 V c).arrAt 6 cfg1.N : S2048x64.Idx → EReal) (ix2 p h)
      = d2 (ix2 p (0 : Fin 1)) * ∑ r : Fin 2048, s1t (ix2 h r) * a (ix2 r p) := by
  subst ha hs hd2
  exact bot_apply V c p h

end Cert.KernelIdeal.Reg

end
-- ==== Proof.Spec.lean ====
/-
  The graph-convolution layer as one function of its five argument arrays, entry by entry, in two arrangements.

  The bipartite graph has 2048 + 2048 nodes and a dense 2048 × 2048 adjacency block `adj`; the full adjacency is
  `[[0, adj], [adjᵀ, 0]]`. Every node `r` carries a feature row `x r`; its support row is
  `sup r h = (∑ d, x r d · W h d) + b h`. The layer's output at node `i`, feature `h` is
  `deg i · ∑ k, adjFull i k · sup k h`.

  `refOut` writes this the way the dense reference does: the diagonal matrix of the degrees times the full
  adjacency, times the support. `kerOut` writes it by halves: for a node of the first half only the second
  half's support rows matter (through `adj`), for a node of the second half only the first half's (through `adjᵀ`).
-/
import Idealize.ShloMosaic.PureOps.Ideal
import Idealize.ShloMosaic.Lib.ValueIdx

noncomputable section

open scoped BigOperators

namespace Cert.Gcn

open Idealize.ShloMosaic Idealize.ShloMosaic.ValueIdx

/-- Node features, one row of 128 per node. -/
abbrev TX := (⟨2, ![4096, 128]⟩ : Shape).Idx → EReal
/-- The dense adjacency block between the two halves. -/
abbrev TA := (⟨2, ![2048, 2048]⟩ : Shape).Idx → EReal
/-- One degree weight per node. -/
abbrev TD := (⟨1, ![4096]⟩ : Shape).Idx → EReal
/-- The linear map's weight, 64 output features by 128 input features. -/
abbrev TW := (⟨2, ![64, 128]⟩ : Shape).Idx → EReal
/-- The linear map's bias. -/
abbrev TB := (⟨1, ![64]⟩ : Shape).Idx → EReal

/-- Node `k` of the first half, as a node of the whole graph. -/
def lo (k : Fin 2048) : Fin 4096 := ⟨k.val, by have := k.isLt; omega⟩
/-- Node `k` of the second half, as a node of the whole graph. -/
def hi (k : Fin 2048) : Fin 4096 := ⟨2048 + k.val, by have := k.isLt; omega⟩

theorem lo_val (k : Fin 2048) : (lo k).val = k.val := rfl
theorem hi_val (k : Fin 2048) : (hi k).val = 2048 + k.val := rfl

/-- The support: the linear map applied to node `r`'s features, feature `h`. -/
def sup (x : TX) (W : TW) (b : TB) (r : Fin 4096) (h : Fin 64) : EReal :=
  (∑ d : Fin 128, x (ix2 r d) * W (ix2 h d)) + b (ix1 h)

/-- The full adjacency `[[0, adj], [adjᵀ, 0]]` at `(j, k)`. -/
def adjFull (adj : TA) (j k : Fin 4096) : EReal :=
  if hj : j.val < 2048 then
    (if hk : k.val < 2048 then 0
     else adj (ix2 (⟨j.val, hj⟩ : Fin 2048) (⟨k.val - 2048, by have := k.isLt; omega⟩ : Fin 2048)))
  else
    (if hk : k.val < 2048 then
      adj (ix2 (⟨k.val, hk⟩ : Fin 2048) (⟨j.val - 2048, by have := j.isLt; omega⟩ : Fin 2048))
     else 0)

/-- The diagonal matrix of the degrees at `(i, j)`. -/
def diag (deg : TD) (i j : Fin 4096) : EReal := if i = j then deg (ix1 i) else 0

/-- The dense arrangement: (diag · adjFull) · sup. -/
def refOut (x : TX) (adj : TA) (deg : TD) (W : TW) (b : TB) (i : Fin 4096) (h : Fin 64) : EReal :=
  ∑ k : Fin 4096, (∑ j : Fin 4096, diag deg i j * adjFull adj j k) * sup x W b k h

/-- The arrangement by halves. -/
def kerOut (x : TX) (adj : TA) (deg : TD) (W : TW) (b : TB) (i : Fin 4096) (h : Fin 64) : EReal :=
  if hi' : i.val < 2048 then
    deg (ix1 i) * ∑ k : Fin 2048, adj (ix2 (⟨i.val, hi'⟩ : Fin 2048) k) * sup x W b (hi k) h
  else
    deg (ix1 i) * ∑ r : Fin 2048, sup x W b (lo r) h
      * adj (ix2 r (⟨i.val - 2048, by have := i.isLt; omega⟩ : Fin 2048))

end Cert.Gcn

end
-- ==== Proof.KI.Value.lean ====
/-
  What the two-kernel program computes, entry by entry, on the extended reals.

  The last contents of the result buffer are followed back through the five items of the run. The result is the
  concatenation of the aggregation kernel's two arrays. Its first array, at node `i` of the first half, is the
  degree of `i` times the product of row `i` of the adjacency with the support rows of the second half; its second,
  at node `p` of the second half, is the degree of `p` times the product of the first half's support rows with
  column `p` of the adjacency, accumulated over the four row blocks. The support rows are what the support kernel
  left: the features times the transposed weight plus the bias, for either half. Reading the host operations
  between the kernels (the transposed weight, the bias as a row, the degrees' halves as columns) at an index turns
  this into the arrangement by halves of the specification.
-/
import proofs.«130676_g11785390260513_cont_main3_35_7_alg».proof.Proof.KI.Run
import proofs.«130676_g11785390260513_cont_main3_35_7_alg».proof.Proof.KI.Val0
import proofs.«130676_g11785390260513_cont_main3_35_7_alg».proof.Proof.KI.Val1
import proofs.«130676_g11785390260513_cont_main3_35_7_alg».proof.Proof.Spec
import proofs.«130676_g11785390260513_cont_main3_35_7_alg».proof.Proof.LibMatmulRead
import proofs.«130676_g11785390260513_cont_main3_35_7_alg».proof.Proof.LibColumnLayout
import Idealize.ShloMosaic.Lib.StableHlo.Run
import Idealize.ShloMosaic.Lib.Pipeline.Value
import Idealize.ShloMosaic.Lib.ValueIdx
noncomputable section
open scoped BigOperators
namespace Cert.KernelIdeal.Reg
open Cert.KernelIdeal Cert.KernelIdeal.Gen Cert.Gcn
open Idealize.ShloMosaic Idealize.ShloMosaic.TcCoe Idealize.ShloMosaic.ValueIdx
open Idealize.SL.Sem
variable (m : (ℓ : Loc nD τ sig) → Buf (Elt Ideal) ℓ) (ρ : Dev nD → PrngReg)

theorem e1_arg0 (c : Dev nD) : Bv1 m ρ c main_arg0 = m ((c : Thread nD τ).loc main_arg0) :=
  (B1_of m ρ c main_arg0 (by decide)).trans rfl
theorem e1_v0 (c : Dev nD) : (Bv1 m ρ c main_v0 : S128x64.Idx → EReal)
    = transpose S128x64 [1, 0] (m ((c : Thread nD τ).loc main_arg3)) Facts₀.transposes_S64x128_S128x64_1_0 := by
  show StableHlo.after hostOps0 (B0 m ρ c) (Proc.devRef .tc main_v0) = _
  after_results
theorem e1_v1 (c : Dev nD) : (Bv1 m ρ c main_v1 : S1x64.Idx → EReal)
    = shapeCast S1x64 (m ((c : Thread nD τ).loc main_arg4)) Facts₀.shapeCasts_S64_S1x64 := by
  show StableHlo.after hostOps0 (B0 m ρ c) (Proc.devRef .tc main_v1) = _
  after_results
  rfl
theorem e2_arg2 (c : Dev nD) : B2 m ρ c (Proc.devRef .tc main_arg2) = m ((c : Thread nD τ).loc main_arg2) :=
  (B2_of_ne m ρ c main_arg2 (by decide)).trans ((B1_of m ρ c main_arg2 (by decide)).trans rfl)
theorem e3_arg1 (c : Dev nD) : Bv3 m ρ c main_arg1 = m ((c : Thread nD τ).loc main_arg1) :=
  (B3_of m ρ c main_arg1 (by decide)).trans ((B2_of_ne m ρ c main_arg1 (by decide)).trans ((B1_of m ρ c main_arg1 (by decide)).trans rfl))
theorem e3_v2_0 (c : Dev nD) : Bv3 m ρ c main_v2_0 = (dat0 (Bv1 m ρ) c).arrAt 3 cfg0.N :=
  (B3_of m ρ c main_v2_0 (by decide)).trans (B2_arr m ρ c 3)
theorem e3_v2_1 (c : Dev nD) : Bv3 m ρ c main_v2_1 = (dat0 (Bv1 m ρ) c).arrAt 4 cfg0.N :=
  (B3_of m ρ c main_v2_1 (by decide)).trans (B2_arr m ρ c 4)
theorem e3_v4 (c : Dev nD) : (Bv3 m ρ c main_v4 : S2048x1.Idx → EReal)
    = shapeCast S2048x1 (extractStridedSlice S2048 ![0] (m ((c : Thread nD τ).loc main_arg2)) Facts₀.slices_S4096_S2048_0) Facts₀.shapeCasts_S2048_S2048x1 := by
  show StableHlo.after hostOps1 (B2 m ρ c) (Proc.devRef .tc main_v4) = _
  after_results
  rw [e2_arg2]
  rfl
theorem e3_v6 (c : Dev nD) : (Bv3 m ρ c main_v6 : S2048x1.Idx → EReal)
    = shapeCast S2048x1 (extractStridedSlice S2048 ![2048] (m ((c : Thread nD τ).loc main_arg2)) Facts₀.slices_S4096_S2048_2048) Facts₀.shapeCasts_S2048_S2048x1 := by
  show StableHlo.after hostOps1 (B2 m ρ c) (Proc.devRef .tc main_v6) = _
  after_results
  rw [e2_arg2]
  rfl
theorem e5_v8 (c : Dev nD) : (B5 m ρ c (Proc.devRef .tc main_v8) : S4096x64.Idx → EReal)
    = concatenate S4096x64 0 [⟨S2048x64, (dat1 (Bv3 m ρ) c).arrAt 5 cfg1.N⟩, ⟨S2048x64, (dat1 (Bv3 m ρ) c).arrAt 6 cfg1.N⟩] Facts₀.concatenates_S2048x64_S2048x64_S4096x64_d0 := by
  show StableHlo.after hostOps2 (B4 m ρ c) (Proc.devRef .tc main_v8) = _
  after_results
  rw [show B4 m ρ c (Proc.devRef .tc main_v7_0) = (dat1 (Bv3 m ρ) c).arrAt 5 cfg1.N from B4_arr m ρ c 5,
    show B4 m ρ c (Proc.devRef .tc main_v7_1) = (dat1 (Bv3 m ρ) c).arrAt 6 cfg1.N from B4_arr m ρ c 6]

/-- The weight transposed reads the weight with its coordinates swapped. -/
theorem wt_apply (c : Dev nD) (d : Fin 128) (h : Fin 64) :
    (Bv1 m ρ c main_v0 : S128x64.Idx → EReal) (ix2 d h) = (m ((c : Thread nD τ).loc main_arg3) : S64x128.Idx → EReal) (ix2 h d) := by
  rw [e1_v0]
  exact transpose_ab_ba_apply _ _ d h
/-- The bias as a row reads the bias. -/
theorem brow_apply (c : Dev nD) (h : Fin 64) :
    (Bv1 m ρ c main_v1 : S1x64.Idx → EReal) (ix2 (0 : Fin 1) h) = (m ((c : Thread nD τ).loc main_arg4) : S64.Idx → EReal) (ix1 h) := by
  rw [e1_v1]
  refine shapeCast_apply (s := S64) (t := S1x64) _ _ (ix2 (0 : Fin 1) h) (ix1 h) ?_
  rw [Shape.rowMajor_val_two]
  show (((⟨1, ![64]⟩ : Shape).rowMajor (ix1 h) : Fin _) : ℕ) = 0 * 64 + h.val
  rw [Shape.rowMajor_val_one]
  show h.val = 0 * 64 + h.val
  omega
/-- The first half of the degrees as a column. -/
theorem d1_apply (c : Dev nD) (i : Fin 2048) :
    (Bv3 m ρ c main_v4 : S2048x1.Idx → EReal) (ix2 i (0 : Fin 1)) = (m ((c : Thread nD τ).loc main_arg2) : S4096.Idx → EReal) (ix1 (lo i)) := by
  rw [e3_v4]
  refine (shapeCast_a_a1_apply _ _ i 0).trans ?_
  refine extractStridedSlice_apply _ _ _ (ix1 i) (ix1 (lo i)) fun a => ?_
  match a with
  | ⟨0, _⟩ => show (lo i).val = 0 + i.val; rw [lo_val]; omega
/-- The second half of the degrees as a column. -/
theorem d2_apply (c : Dev nD) (i : Fin 2048) :
    (Bv3 m ρ c main_v6 : S2048x1.Idx → EReal) (ix2 i (0 : Fin 1)) = (m ((c : Thread nD τ).loc main_arg2) : S4096.Idx → EReal) (ix1 (hi i)) := by
  rw [e3_v6]
  refine (shapeCast_a_a1_apply _ _ i 0).trans ?_
  refine extractStridedSlice_apply _ _ _ (ix1 i) (ix1 (hi i)) fun a => ?_
  match a with
  | ⟨0, _⟩ => show (hi i).val = 2048 + i.val; rw [hi_val]

/-- The support kernel's first array holds the support rows of the second half. -/
theorem sup2_is (c : Dev nD) (k : Fin 2048) (h : Fin 64) :
    ((dat0 (Bv1 m ρ) c).arrAt 3 cfg0.N : S2048x64.Idx → EReal) (ix2 k h)
      = sup (m ((c : Thread nD τ).loc main_arg0)) (m ((c : Thread nD τ).loc main_arg3)) (m ((c : Thread nD τ).loc main_arg4)) (hi k) h := by
  rw [sup2_apply_of (Bv1 m ρ) c _ _ _ (e1_arg0 m ρ c) rfl rfl k h]
  unfold sup
  refine congrArg₂ (· + ·) (Finset.sum_congr rfl fun d _ => ?_) (brow_apply m ρ c h)
  exact congrArg₂ (· * ·) rfl (wt_apply m ρ c d h)

/-- Its second array holds the support rows of the first half, transposed. -/
theorem sup1t_is (c : Dev nD) (h : Fin 64) (r : Fin 2048) :
    ((dat0 (Bv1 m ρ) c).arrAt 4 cfg0.N : S64x2048.Idx → EReal) (ix2 h r)
      = sup (m ((c : Thread nD τ).loc main_arg0)) (m ((c : Thread nD τ).loc main_arg3)) (m ((c : Thread nD τ).loc main_arg4)) (lo r) h := by
  rw [sup1t_apply_of (Bv1 m ρ) c _ _ _ (e1_arg0 m ρ c) rfl rfl h r]
  unfold sup
  refine congrArg₂ (· + ·) (Finset.sum_congr rfl fun d _ => ?_) (brow_apply m ρ c h)
  exact congrArg₂ (· * ·) rfl (wt_apply m ρ c d h)

/-- THE VALUE: the result buffer's last contents are the layer's output in the arrangement by halves. -/
theorem result_apply (c : Dev nD) (i : Fin 4096) (h : Fin 64) :
    (B5 m ρ c (Proc.devRef .tc main_v8) : S4096x64.Idx → EReal) (ix2 i h)
      = kerOut (m ((c : Thread nD τ).loc main_arg0)) (m ((c : Thread nD τ).loc main_arg1)) (m ((c : Thread nD τ).loc main_arg2))
          (m ((c : Thread nD τ).loc main_arg3)) (m ((c : Thread nD τ).loc main_arg4)) i h := by
  rw [e5_v8]
  unfold kerOut
  split
  · rename_i hi'
    refine (concatenate_pair_apply_left (t := S4096x64) (s₁ := S2048x64) (s₂ := S2048x64) 0 _ _ _ (ix2 i h) rfl
      (ix2 (⟨i.val, hi'⟩ : Fin 2048) h) (fun b => by match b with | ⟨0, _⟩ => rfl | ⟨1, _⟩ => rfl)).trans ?_
    rw [top_apply_of (Bv3 m ρ) c _ _ _ (e3_arg1 m ρ c) (e3_v2_0 m ρ c) rfl ⟨i.val, hi'⟩ h]
    refine congrArg₂ (· * ·) (d1_apply m ρ c ⟨i.val, hi'⟩) (Finset.sum_congr rfl fun k _ => ?_)
    exact congrArg₂ (· * ·) rfl (sup2_is m ρ c k h)
  · rename_i hi'
    have hlt : i.val - 2048 < 2048 := by have := i.isLt; omega
    refine (concatenate_pair_apply_right (t := S4096x64) (s₁ := S2048x64) (s₂ := S2048x64) 0 _ _ _ (ix2 i h) rfl rfl
      (ix2 (⟨i.val - 2048, hlt⟩ : Fin 2048) h)
      (fun b hb => by match b with | ⟨0, _⟩ => exact absurd rfl hb | ⟨1, _⟩ => rfl)
      (by show (i.val - 2048) + 2048 = i.val; omega)).trans ?_
    rw [bot_apply_of (Bv3 m ρ) c _ _ _ (e3_arg1 m ρ c) (e3_v2_1 m ρ c) rfl ⟨i.val - 2048, hlt⟩ h]
    refine congrArg₂ (· * ·) ((d2_apply m ρ c ⟨i.val - 2048, hlt⟩).trans ?_) (Finset.sum_congr rfl fun r _ => ?_)
    · refine congrArg (m ((c : Thread nD τ).loc main_arg2) : S4096.Idx → EReal) (congrArg ix1 (Fin.ext ?_))
      show 2048 + (i.val - 2048) = i.val
      omega
    · exact congrArg₂ (· * ·) (sup1t_is m ρ c h r) rfl

end Cert.KernelIdeal.Reg
end
-- ==== Proof.RefRun.lean ====
/-
  The dense reference of the graph-convolution layer, run: its entry function is a straight line of host
  operations (the two functions it calls — the diagonal matrix of a vector, and the element-wise choice that
  builds it — unfolded at their calls), so every execution ends with the result array at the composition of
  the operations' functions applied to the five argument arrays, and the arguments unchanged.
-/
import proofs.«130676_g11785390260513_cont_main3_35_7_alg».proof.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo

variable [Facts]
open Facts₀ Facts

section Line

variable {F : FTy → Type} [FloatOps F]

/-- The entry function's twenty-eight operations in order, the two calls unfolded: eight that assemble the full
    adjacency, thirteen of the diagonal matrix (ten of its own, then the three of the element-wise choice), the
    product of the two, the four of the support, and the final product. -/
abbrev ops : List (HloOp τ sig (Elt F)) :=
  [ nullary main_cst (constant S_ .f32 0x00000000#32),
    unary main_cst main_v0 (broadcastInDim S2048x2048 ![] bcast_S_S2048x2048 : (⟨S_, .f32⟩ : BufTy).Contents (Elt F) → (⟨S2048x2048, .f32⟩ : BufTy).Contents (Elt F)),
    binary main_v0 main_arg1 main_v1 ((fun a b => concatenate S2048x4096 1 [⟨S2048x2048, a⟩, ⟨S2048x2048, b⟩] concatenates_S2048x2048_S2048x2048_S2048x4096_d1) : (⟨S2048x2048, .f32⟩ : BufTy).Contents (Elt F) → (⟨S2048x2048, .f32⟩ : BufTy).Contents (Elt F) → (⟨S2048x4096, .f32⟩ : BufTy).Contents (Elt F)),
    unary main_arg1 main_v2 ((transpose S2048x2048 [1, 0] · transposes_S2048x2048_S2048x2048_1_0) : (⟨S2048x2048, .f32⟩ : BufTy).Contents (Elt F) → (⟨S2048x2048, .f32⟩ : BufTy).Contents (Elt F)),
    nullary main_cst_0 (constant S_ .f32 0x00000000#32),
    unary main_cst_0 main_v3 (broadcastInDim S2048x2048 ![] bcast_S_S2048x2048 : (⟨S_, .f32⟩ : BufTy).Contents (Elt F) → (⟨S2048x2048, .f32⟩ : BufTy).Contents (Elt F)),
    binary main_v2 main_v3 main_v4 ((fun a b => concatenate S2048x4096 1 [⟨S2048x2048, a⟩, ⟨S2048x2048, b⟩] concatenates_S2048x2048_S2048x2048_S2048x4096_d1) : (⟨S2048x2048, .f32⟩ : BufTy).Contents (Elt F) → (⟨S2048x2048, .f32⟩ : BufTy).Contents (Elt F) → (⟨S2048x4096, .f32⟩ : BufTy).Contents (Elt F)),
    binary main_v1 main_v4 main_v5 ((fun a b => concatenate S4096x4096 0 [⟨S2048x4096, a⟩, ⟨S2048x4096, b⟩] concatenates_S2048x4096_S2048x4096_S4096x4096_d0) : (⟨S2048x4096, .f32⟩ : BufTy).Contents (Elt F) → (⟨S2048x4096, .f32⟩ : BufTy).Contents (Elt F) → (⟨S4096x4096, .f32⟩ : BufTy).Contents (Elt F)),
    TRef.nullary main_call0.cst (constant S_ .f32 0x00000000#32),
    TRef.binary (.of main_arg2) main_call0.cst main_call0.v0 (fun x v => pad S4096 ![0] ![0] ![0] x v pads_S4096_S4096_000 h_S_),
    TRef.nullary main_call0.v1 (iotaInDim S4096x4096 32 0),
    TRef.nullary main_call0.v2 (iotaInDim S4096x4096 32 1),
    TRef.nullary main_call0.c (constantI S_ 32 0#32),
    TRef.unary main_call0.c main_call0.v3 (broadcastInDim S4096x4096 ![] bcast_S_S4096x4096),
    TRef.binary main_call0.v1 main_call0.v3 main_call0.v4 addi,
    TRef.binary main_call0.v4 main_call0.v2 main_call0.v5 (cmpi .eq),
    TRef.unary main_call0.v0 main_call0.v6 (broadcastInDim S4096x1 ![0] bcast_S4096_S4096x1_0),
    TRef.nullary main_call0.cst_0 (constant S_ .f32 0x00000000#32),
    TRef.unary main_call0.v6 main_call0.call0.v0 (broadcastInDim S4096x4096 ![0, 1] bcast_S4096x1_S4096x4096_0_1),
    TRef.unary main_call0.cst_0 main_call0.call0.v1 (broadcastInDim S4096x4096 ![] bcast_S_S4096x4096),
    TRef.ternary main_call0.v5 main_call0.call0.v0 main_call0.call0.v1 main_call0.call0.v2 select,
    binary main_v6 main_v5 main_v7 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg3 main_v8 ((transpose S128x64 [1, 0] · transposes_S64x128_S128x64_1_0) : (⟨S64x128, .f32⟩ : BufTy).Contents (Elt F) → (⟨S128x64, .f32⟩ : BufTy).Contents (Elt F)),
    binary main_arg0 main_v8 main_v9 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    unary main_arg4 main_v10 (broadcastInDim S1x64 ![1] bcast_S64_S1x64_1 : (⟨S64, .f32⟩ : BufTy).Contents (Elt F) → (⟨S1x64, .f32⟩ : BufTy).Contents (Elt F)),
    unary main_v10 main_v11 (broadcastInDim S4096x64 ![0, 1] bcast_S1x64_S4096x64_0_1 : (⟨S1x64, .f32⟩ : BufTy).Contents (Elt F) → (⟨S4096x64, .f32⟩ : BufTy).Contents (Elt F)),
    binary main_v9 main_v11 main_v12 (addf : (⟨S4096x64, .f32⟩ : BufTy).Contents (Elt F) → (⟨S4096x64, .f32⟩ : BufTy).Contents (Elt F) → (⟨S4096x64, .f32⟩ : BufTy).Contents (Elt F)),
    binary main_v7 main_v12 main_v13 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)) ]

/-- The entry function is that straight line: the two called functions unfolded at their calls and the
    records of their buffers at their fields, both sides are one chain of steps once the sequencing is
    reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., unary_bufs_sub .., binary_bufs_sub .., unary_bufs_sub .., unary_bufs_sub .., binary_bufs_sub ..,
    binary_bufs_sub ..⟩

/-- Every execution of the entry function terminates with every buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The composed term -/

/-- The scalar zero of the reference's three zero constants. -/
abbrev zeroS : FVec Ideal S_ .f32 := constant (F := Ideal) S_ .f32 0x00000000#32

/-- The full adjacency `[[0, adj], [adjᵀ, 0]]` as the reference builds it: a block of zeros beside `adj`, the
    transpose of `adj` beside a block of zeros, the first pair above the second. -/
def adjFullV (adj : FVec Ideal S2048x2048 .f32) : FVec Ideal S4096x4096 .f32 :=
  concatenate S4096x4096 0
    [⟨S2048x4096, concatenate S2048x4096 1
        [⟨S2048x2048, broadcastInDim S2048x2048 ![] bcast_S_S2048x2048 zeroS⟩, ⟨S2048x2048, adj⟩]
        concatenates_S2048x2048_S2048x2048_S2048x4096_d1⟩,
     ⟨S2048x4096, concatenate S2048x4096 1
        [⟨S2048x2048, transpose S2048x2048 [1, 0] adj transposes_S2048x2048_S2048x2048_1_0⟩,
         ⟨S2048x2048, broadcastInDim S2048x2048 ![] bcast_S_S2048x2048 zeroS⟩]
        concatenates_S2048x2048_S2048x2048_S2048x4096_d1⟩]
    concatenates_S2048x4096_S2048x4096_S4096x4096_d0

/-- The diagonal matrix of the degrees as the reference builds it: where the row number (plus a zero offset)
    equals the column number, the degree of the row (the vector padded by nothing, made a column, copied along
    the rows), elsewhere zero. -/
def diagV (deg : FVec Ideal S4096 .f32) : FVec Ideal S4096x4096 .f32 :=
  select
    (cmpi .eq
      (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] deg zeroS pads_S4096_S4096_000 h_S_)))
    (broadcastInDim S4096x4096 ![] bcast_S_S4096x4096 zeroS)

/-- The support as the reference builds it: the features times the transposed weight, plus the bias made a row
    and copied down the rows. -/
def supV (x : FVec Ideal S4096x128 .f32) (W : FVec Ideal S64x128 .f32) (b : FVec Ideal S64 .f32) : FVec Ideal S4096x64 .f32 :=
  addf
    (Host.dotGeneral dot_S4096x128_S128x64_S4096x64_1_0_0_1_n_n none x
      (transpose S128x64 [1, 0] W transposes_S64x128_S128x64_1_0))
    (broadcastInDim S4096x64 ![0, 1] bcast_S1x64_S4096x64_0_1 (broadcastInDim S1x64 ![1] bcast_S64_S1x64_1 b))

/-- The reference's result as one term of its five arguments: (diagonal · full adjacency) · support. -/
def out (x : FVec Ideal S4096x128 .f32) (adj : FVec Ideal S2048x2048 .f32) (deg : FVec Ideal S4096 .f32)
    (W : FVec Ideal S64x128 .f32) (b : FVec Ideal S64 .f32) : FVec Ideal S4096x64 .f32 :=
  Host.dotGeneral dot_S4096x4096_S4096x64_S4096x64_1_0_0_1_n_n none
    (Host.dotGeneral dot_S4096x4096_S4096x4096_S4096x4096_1_0_0_1_n_n none (diagV deg) (adjFullV adj))
    (supV x W b)

/-! ## The run read at the result and at the arguments -/

set_option maxRecDepth 8192 in
/-- The fold at the result buffer is the composed term: each operation's result at its own buffer is its
    function's value, at any other buffer what was there; the typed references of the two called functions
    store and read through transports along type equations that hold by computation, so they cancel. -/
theorem out_eq (V : Valuation τ sig (Elt Ideal)) :
    after (ops (F := Ideal)) V (main_v13 : DevRef τ sig)
      = out (V (main_arg0 : DevRef τ sig)) (V (main_arg1 : DevRef τ sig)) (V (main_arg2 : DevRef τ sig))
          (V (main_arg3 : DevRef τ sig)) (V (main_arg4 : DevRef τ sig)) := by
  after_results
  simp only [TRef.toBuf, TRef.ofBuf, cast_eq]
  rfl

/-- No operation writes an argument. -/
theorem arg0_eq (V : Valuation τ sig (Elt Ideal)) :
    after (ops (F := Ideal)) V (main_arg0 : DevRef τ sig) = V (main_arg0 : DevRef τ sig) := by after_results
theorem arg1_eq (V : Valuation τ sig (Elt Ideal)) :
    after (ops (F := Ideal)) V (main_arg1 : DevRef τ sig) = V (main_arg1 : DevRef τ sig) := by after_results
theorem arg2_eq (V : Valuation τ sig (Elt Ideal)) :
    after (ops (F := Ideal)) V (main_arg2 : DevRef τ sig) = V (main_arg2 : DevRef τ sig) := by after_results
theorem arg3_eq (V : Valuation τ sig (Elt Ideal)) :
    after (ops (F := Ideal)) V (main_arg3 : DevRef τ sig) = V (main_arg3 : DevRef τ sig) := by after_results
theorem arg4_eq (V : Valuation τ sig (Elt Ideal)) :
    after (ops (F := Ideal)) V (main_arg4 : DevRef τ sig) = V (main_arg4 : DevRef τ sig) := by after_results

/-- From any memory with zero counters, every weakly fair execution of the reference terminates with the result
    array at `out` of the five argument arrays' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v13).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

end Cert.ReferenceIdeal.RefRun

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefValue.lean ====
/-
  The dense reference's result read entry by entry.

  `RefRun.out` is (diagonal · full adjacency) · support, as three matrix products of arrays built by layout
  operations. Read at an index, each array is the entry the specification names:
    • the full adjacency at `(j, k)` — two concatenations along the columns, one along the rows — is
      `adjFull adj j k`: zero in the two diagonal blocks, `adj` above the diagonal, its transpose below;
    • the diagonal matrix at `(i, j)` — a choice on the equality of a row-number array and a column-number
      array between the degree of the row and zero — is `diag deg i j`;
    • the support at `(k, h)` — a product with the transposed weight plus the bias copied down the rows — is
      `sup x W b k h`;
  and each host product is the sum over the contracted coordinate of the products of entries.
-/
import proofs.«130676_g11785390260513_cont_main3_35_7_alg».proof.Proof.RefRun
import proofs.«130676_g11785390260513_cont_main3_35_7_alg».proof.Proof.Spec
import proofs.«130676_g11785390260513_cont_main3_35_7_alg».proof.Proof.LibHostRead
import proofs.«130676_g11785390260513_cont_main3_35_7_alg».proof.Proof.LibMatmulRead
import Idealize.ShloMosaic.Lib.KernelVsHost
import Idealize.ShloMosaic.Lib.IdealHost

noncomputable section

open scoped BigOperators

namespace Cert.ReferenceIdeal.RefRun

open Cert.ReferenceIdeal Idealize.ShloMosaic Idealize.ShloMosaic.ValueIdx Cert.HostRead

variable [Facts]
open Facts₀ Facts

/-! ## The support -/

theorem supV_apply (x : FVec Ideal S4096x128 .f32) (W : FVec Ideal S64x128 .f32) (b : FVec Ideal S64 .f32)
    (k : Fin 4096) (h : Fin 64) : supV x W b (ix2 k h) = Cert.Gcn.sup x W b k h := by
  unfold supV Cert.Gcn.sup
  refine (addf_apply _ _ _).trans (congrArg₂ (· + ·) ?_ ?_)
  · refine (dotGeneral_ix2_apply dot_S4096x128_S128x64_S4096x64_1_0_0_1_n_n rfl rfl rfl rfl rfl rfl none x _ k h).trans ?_
    exact Finset.sum_congr rfl fun d _ => congrArg (x (ix2 k d) * ·) (transpose_ab_ba_apply W _ d h)
  · exact bias_rows_apply _ _ b k h

/-! ## The diagonal matrix -/

/-- Two numbers below 4096, the first plus zero, are equal as 32-bit words exactly when they are equal. -/
theorem cmpi_iota (i j : Fin 4096) :
    IntOp.cmpi .eq (IntOp.addi (BitVec.ofNat 32 i.val) 0#32) (BitVec.ofNat 32 j.val) = if i = j then 1#1 else 0#1 := by
  by_cases hij : i = j
  · subst hij
    rw [if_pos rfl]
    simp [IntOp.cmpi, IntOp.addi]
  · rw [if_neg hij]
    have hne : ¬ (BitVec.ofNat 32 i.val = BitVec.ofNat 32 j.val) := fun e => hij (Fin.ext (by
      have e' := congrArg BitVec.toNat e
      simp only [BitVec.toNat_ofNat] at e'
      have hi := i.isLt
      have hj := j.isLt
      omega))
    show BitVec.ofBool (BitVec.ofNat 32 i.val + 0#32 == BitVec.ofNat 32 j.val) = 0#1
    rw [BitVec.add_zero, beq_eq_false_iff_ne.mpr hne]
    rfl

theorem diagV_apply (deg : FVec Ideal S4096 .f32) (i j : Fin 4096) :
    diagV deg (ix2 i j) = Cert.Gcn.diag deg i j := by
  unfold diagV Cert.Gcn.diag
  refine (select_apply _ _ _ _).trans ?_
  have hc : cmpi .eq
      (addi (iotaInDim S4096x4096 32 0) (broadcastInDim S4096x4096 ![] bcast_S_S4096x4096 (constantI S_ 32 0#32)))
      (iotaInDim S4096x4096 32 1) (ix2 i j)
      = IntOp.cmpi .eq (IntOp.addi (BitVec.ofNat 32 i.val) 0#32) (BitVec.ofNat 32 j.val) := rfl
  rw [hc, cmpi_iota]
  by_cases hij : i = j
  · rw [if_pos hij, if_pos hij, select_one]
    refine (broadcastInDim_apply ![0, 1] bcast_S4096x1_S4096x4096_0_1 _ (ix2 i j) (ix2 i (0 : Fin 1)) fun a => ?_).trans ?_
    · match a with
      | ⟨0, _⟩ => rfl
      | ⟨1, _⟩ => rfl
    refine (broadcastInDim_apply ![0] bcast_S4096_S4096x1_0 _ (ix2 i (0 : Fin 1)) (ix1 i) fun a => ?_).trans ?_
    · match a with
      | ⟨0, _⟩ => rfl
    refine pad_apply_of_inside ![0] ![0] ![0] deg zeroS pads_S4096_S4096_000 h_S_ (ix1 i) (ix1 i) fun a => ?_
    match a with
    | ⟨0, _⟩ => show i.val = 0 + i.val * (0 + 1); omega
  · rw [if_neg hij, if_neg hij, select_zero]
    exact (scalar_bcast_apply _ _ _).trans Ideal.ofBits_zero_f32

/-! ## The full adjacency -/

theorem adjFullV_apply (adj : FVec Ideal S2048x2048 .f32) (j k : Fin 4096) :
    adjFullV adj (ix2 j k) = Cert.Gcn.adjFull adj j k := by
  unfold adjFullV Cert.Gcn.adjFull
  by_cases hj : j.val < 2048
  · rw [dif_pos hj]
    refine (concatenate_pair_apply_left (s₁ := S2048x4096) (s₂ := S2048x4096) (0 : Fin 2) _ _ _ (ix2 j k) rfl (ix2 (⟨j.val, hj⟩ : Fin 2048) k) fun a => ?_).trans ?_
    · match a with
      | ⟨0, _⟩ => rfl
      | ⟨1, _⟩ => rfl
    by_cases hk : k.val < 2048
    · rw [dif_pos hk]
      refine (concatenate_pair_apply_left (s₁ := S2048x2048) (s₂ := S2048x2048) (1 : Fin 2) _ _ _ (ix2 (⟨j.val, hj⟩ : Fin 2048) k) rfl
        (ix2 (⟨j.val, hj⟩ : Fin 2048) (⟨k.val, hk⟩ : Fin 2048)) fun a => ?_).trans ?_
      · match a with
        | ⟨0, _⟩ => rfl
        | ⟨1, _⟩ => rfl
      exact (scalar_bcast_apply _ _ _).trans Ideal.ofBits_zero_f32
    · rw [dif_neg hk]
      have hk2 : k.val - 2048 < 2048 := by have := k.isLt; omega
      refine concatenate_pair_apply_right (s₁ := S2048x2048) (s₂ := S2048x2048) (1 : Fin 2) _ _ _ (ix2 (⟨j.val, hj⟩ : Fin 2048) k) rfl rfl
        (ix2 (⟨j.val, hj⟩ : Fin 2048) (⟨k.val - 2048, hk2⟩ : Fin 2048)) (fun a ha => ?_) ?_
      · match a with
        | ⟨0, _⟩ => rfl
        | ⟨1, _⟩ => exact absurd rfl ha
      · show k.val - 2048 + 2048 = k.val
        omega
  · rw [dif_neg hj]
    have hj2 : j.val - 2048 < 2048 := by have := j.isLt; omega
    refine (concatenate_pair_apply_right (s₁ := S2048x4096) (s₂ := S2048x4096) (0 : Fin 2) _ _ _ (ix2 j k) rfl rfl
      (ix2 (⟨j.val - 2048, hj2⟩ : Fin 2048) k) (fun a ha => ?_) ?_).trans ?_
    · match a with
      | ⟨0, _⟩ => exact absurd rfl ha
      | ⟨1, _⟩ => rfl
    · show j.val - 2048 + 2048 = j.val
      omega
    by_cases hk : k.val < 2048
    · rw [dif_pos hk]
      refine (concatenate_pair_apply_left (s₁ := S2048x2048) (s₂ := S2048x2048) (1 : Fin 2) _ _ _ (ix2 (⟨j.val - 2048, hj2⟩ : Fin 2048) k) rfl
        (ix2 (⟨j.val - 2048, hj2⟩ : Fin 2048) (⟨k.val, hk⟩ : Fin 2048)) fun a => ?_).trans ?_
      · match a with
        | ⟨0, _⟩ => rfl
        | ⟨1, _⟩ => rfl
      exact transpose_ab_ba_apply adj _ (⟨j.val - 2048, hj2⟩ : Fin 2048) (⟨k.val, hk⟩ : Fin 2048)
    · rw [dif_neg hk]
      have hk2 : k.val - 2048 < 2048 := by have := k.isLt; omega
      refine (concatenate_pair_apply_right (s₁ := S2048x2048) (s₂ := S2048x2048) (1 : Fin 2) _ _ _ (ix2 (⟨j.val - 2048, hj2⟩ : Fin 2048) k) rfl rfl
        (ix2 (⟨j.val - 2048, hj2⟩ : Fin 2048) (⟨k.val - 2048, hk2⟩ : Fin 2048)) (fun a ha => ?_) ?_).trans ?_
      · match a with
        | ⟨0, _⟩ => rfl
        | ⟨1, _⟩ => exact absurd rfl ha
      · show k.val - 2048 + 2048 = k.val
        omega
      exact (scalar_bcast_apply _ _ _).trans Ideal.ofBits_zero_f32

/-! ## The result -/

/-- The reference's result at `(i, h)` is the specification's dense arrangement there. -/
theorem out_apply (x : FVec Ideal S4096x128 .f32) (adj : FVec Ideal S2048x2048 .f32) (deg : FVec Ideal S4096 .f32)
    (W : FVec Ideal S64x128 .f32) (b : FVec Ideal S64 .f32) (i : Fin 4096) (h : Fin 64) :
    out x adj deg W b (ix2 i h) = Cert.Gcn.refOut x adj deg W b i h := by
  unfold out Cert.Gcn.refOut
  refine (dotGeneral_ix2_apply dot_S4096x4096_S4096x64_S4096x64_1_0_0_1_n_n rfl rfl rfl rfl rfl rfl none _ _ i h).trans ?_
  refine Finset.sum_congr rfl fun k _ => congrArg₂ (· * ·) ?_ (supV_apply x W b k h)
  refine (dotGeneral_ix2_apply dot_S4096x4096_S4096x4096_S4096x4096_1_0_0_1_n_n rfl rfl rfl rfl rfl rfl none _ _ i k).trans ?_
  exact Finset.sum_congr rfl fun j _ => congrArg₂ (· * ·) (diagV_apply deg i j) (adjFullV_apply adj j k)

end Cert.ReferenceIdeal.RefRun

end
-- ==== Proof.SpecLaw.lean ====
/-
  The two arrangements of the graph-convolution layer agree on real inputs.

  The dense arrangement sums, for output node `i`, over all 4096 nodes `k` the product of row `i` of
  `diag · adjFull` with the support of `k`. Row `i` of `diag · adjFull` is `deg i · adjFull i k` (the diagonal matrix
  has one nonzero entry per row). The sum over `k` splits into the two halves of the node set; on one of them
  `adjFull i ·` vanishes and on the other it is a row (or a column) of `adj`. What is left is
  `∑ (deg i · a k) · s k = deg i · ∑ a k · s k`: the extended reals are not distributive at the infinities, so this
  step is done on the reals, which is where the finiteness of the inputs is used.
-/
import proofs.«130676_g11785390260513_cont_main3_35_7_alg».proof.Proof.Spec
import Mathlib.Data.EReal.Operations
import Mathlib.Algebra.BigOperators.Fin

noncomputable section

open scoped BigOperators

namespace Cert.Gcn

open Idealize.ShloMosaic Idealize.ShloMosaic.ValueIdx

/-- A sum over the 4096 nodes is the sum over the first half plus the sum over the second half. -/
theorem sum_halves {M : Type*} [AddCommMonoid M] (f : Fin 4096 → M) :
    ∑ k : Fin 4096, f k = (∑ k : Fin 2048, f (lo k)) + ∑ k : Fin 2048, f (hi k) := by
  have h := Fin.sum_univ_add (a := 2048) (b := 2048) (f := f)
  rw [h]
  congr 1

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- On real entries a common left factor comes out of a sum of products. -/
theorem sum_mul_real {ι : Type*} (t : Finset ι) (d : EReal) (a s : ι → EReal)
    (hd : ∃ r : ℝ, d = (r : EReal)) (ha : ∀ i, ∃ r : ℝ, a i = (r : EReal))
    (hs : ∀ i, ∃ r : ℝ, s i = (r : EReal)) :
    ∑ i ∈ t, (d * a i) * s i = d * ∑ i ∈ t, a i * s i := by
  obtain ⟨dr, rfl⟩ := hd
  choose ar har using ha
  choose sr hsr using hs
  simp only [har, hsr, ← EReal.coe_mul, ← coe_sum]
  rw [Finset.mul_sum]
  simp only [mul_assoc]

/-- The support of real inputs is real. -/
theorem sup_real (x : TX) (W : TW) (b : TB) (hx : ∀ j, ∃ r : ℝ, x j = (r : EReal))
    (hW : ∀ j, ∃ r : ℝ, W j = (r : EReal)) (hb : ∀ j, ∃ r : ℝ, b j = (r : EReal))
    (k : Fin 4096) (h : Fin 64) : ∃ r : ℝ, sup x W b k h = (r : EReal) := by
  choose xr hxr using hx
  choose wr hwr using hW
  choose br hbr using hb
  refine ⟨(∑ d : Fin 128, xr (ix2 k d) * wr (ix2 h d)) + br (ix1 h), ?_⟩
  unfold sup
  simp only [hxr, hwr, hbr, EReal.coe_add, coe_sum, EReal.coe_mul]

/-- Row `i` of `diag · adjFull`: the diagonal matrix has its one nonzero entry of row `i` at column `i`. -/
theorem diag_row (adj : TA) (deg : TD) (i k : Fin 4096) :
    ∑ j : Fin 4096, diag deg i j * adjFull adj j k = deg (ix1 i) * adjFull adj i k := by
  rw [Finset.sum_eq_single i]
  · simp [diag]
  · intro j _ hj
    simp [diag, Ne.symm hj]
  · intro h; exact absurd (Finset.mem_univ i) h

/-- A node of the first half is not adjacent to a node of the first half. -/
theorem adjFull_lt_lo (adj : TA) (i : Fin 4096) (hi' : i.val < 2048) (k : Fin 2048) :
    adjFull adj i (lo k) = 0 := by
  unfold adjFull
  rw [dif_pos hi', dif_pos (by rw [lo_val]; exact k.isLt)]

/-- A node of the first half sees a node of the second half through `adj`. -/
theorem adjFull_lt_hi (adj : TA) (i : Fin 4096) (hi' : i.val < 2048) (k : Fin 2048) :
    adjFull adj i (hi k) = adj (ix2 (⟨i.val, hi'⟩ : Fin 2048) k) := by
  have key : ∀ p : (hi k).val - 2048 < 2048, (⟨(hi k).val - 2048, p⟩ : Fin 2048) = k :=
    fun p => Fin.ext (by show 2048 + k.val - 2048 = k.val; omega)
  unfold adjFull
  rw [dif_pos hi', dif_neg (by rw [hi_val]; omega), key]

/-- A node of the second half sees a node of the first half through the transpose of `adj`. -/
theorem adjFull_ge_lo (adj : TA) (i : Fin 4096) (hi' : ¬ i.val < 2048) (k : Fin 2048) :
    adjFull adj i (lo k)
      = adj (ix2 k (⟨i.val - 2048, by have := i.isLt; omega⟩ : Fin 2048)) := by
  have key : ∀ p : (lo k).val < 2048, (⟨(lo k).val, p⟩ : Fin 2048) = k := fun p => Fin.ext rfl
  unfold adjFull
  rw [dif_neg hi', dif_pos (by rw [lo_val]; exact k.isLt), key]

/-- A node of the second half is not adjacent to a node of the second half. -/
theorem adjFull_ge_hi (adj : TA) (i : Fin 4096) (hi' : ¬ i.val < 2048) (k : Fin 2048) :
    adjFull adj i (hi k) = 0 := by
  unfold adjFull
  rw [dif_neg hi', dif_neg (by rw [hi_val]; omega)]

/-- On real inputs the dense arrangement and the arrangement by halves give the same output entry. -/
theorem refOut_eq_kerOut (x : TX) (adj : TA) (deg : TD) (W : TW) (b : TB)
    (hx : ∀ j, ∃ r : ℝ, x j = (r : EReal)) (hadj : ∀ j, ∃ r : ℝ, adj j = (r : EReal))
    (hdeg : ∀ j, ∃ r : ℝ, deg j = (r : EReal)) (hW : ∀ j, ∃ r : ℝ, W j = (r : EReal))
    (hb : ∀ j, ∃ r : ℝ, b j = (r : EReal)) (i : Fin 4096) (h : Fin 64) :
    refOut x adj deg W b i h = kerOut x adj deg W b i h := by
  have hsup := sup_real x W b hx hW hb
  unfold refOut kerOut
  simp only [diag_row]
  rw [sum_halves]
  by_cases hi' : i.val < 2048
  · rw [dif_pos hi']
    simp only [adjFull_lt_lo adj i hi', adjFull_lt_hi adj i hi', mul_zero, zero_mul,
      Finset.sum_const_zero, zero_add]
    exact sum_mul_real Finset.univ (deg (ix1 i)) (fun k => adj (ix2 (⟨i.val, hi'⟩ : Fin 2048) k))
      (fun k => sup x W b (hi k) h) (hdeg _) (fun k => hadj _) (fun k => hsup _ _)
  · rw [dif_neg hi']
    simp only [adjFull_ge_lo adj i hi', adjFull_ge_hi adj i hi', mul_zero, zero_mul,
      Finset.sum_const_zero, add_zero]
    rw [sum_mul_real Finset.univ (deg (ix1 i))
      (fun r => adj (ix2 r (⟨i.val - 2048, by have := i.isLt; omega⟩ : Fin 2048)))
      (fun r => sup x W b (lo r) h) (hdeg _) (fun r => hadj _) (fun r => hsup _ _)]
    simp only [mul_comm]

end Cert.Gcn

end
-- ==== Proof.Finite.lean ====
/-
  From the precondition to finiteness: the precondition is the conjunction, over the five argument arrays, of
  "every entry has absolute value below +∞". On the extended reals `max x (-x) < ⊤` excludes exactly `x = ⊤` and
  `x = ⊥`, so every entry of every argument array is (the coercion of) a real number.
-/
import proofs.«130676_g11785390260513_cont_main3_35_7_alg».proof.Defs
import Idealize.ShloMosaic.Lib.ReduceAll
import Idealize.ShloMosaic.Lib.ValueIdx

noncomputable section

namespace Cert.Gcn

open Idealize.ShloMosaic Idealize.SL.Sem

/-- The scalar shape has one index. -/
instance : Subsingleton (⟨0, ![]⟩ : Shape).Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- "All entries of `|a|` are below `+∞`", a conjunction over the whole array, read back: every entry of `a` is a real. -/
theorem all_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (e : Host.reduce IntOp.andi
          (cmpf .olt (Host.absf a) (broadcastInDim s ![] hb (constant (⟨0, ![]⟩ : Shape) .f32 0x7F800000#32)))
          (constantI (⟨0, ![]⟩ : Shape) 1 1#1) hr hu j = 1#1) :
    ∀ i, ∃ r : ℝ, a i = (r : EReal) := by
  intro i
  have h := Host.reduce_andi_all _ _ hr hu j e i
  exact real_of_abs_lt_inf (a i) h

/-- Under the precondition every entry of the five argument arrays is a real, on every device. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal))
    ∧ (∀ j, ∃ r : ℝ, m ((c.tc : Thread Cert.KernelIdeal.nD Cert.KernelIdeal.τ).loc Cert.KernelIdeal.main_arg2) j = (r : EReal))
    ∧ (∀ j, ∃ r : ℝ, m ((c.tc : Thread Cert.KernelIdeal.nD Cert.KernelIdeal.τ).loc Cert.KernelIdeal.main_arg3) j = (r : EReal))
    ∧ (∀ j, ∃ r : ℝ, m ((c.tc : Thread Cert.KernelIdeal.nD Cert.KernelIdeal.τ).loc Cert.KernelIdeal.main_arg4) j = (r : EReal)) := by
  have e := congrFun (hpre c) ValueIdx.ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨all_real _ _ _ _ _ h0, all_real _ _ _ _ _ h1, all_real _ _ _ _ _ h2, all_real _ _ _ _ _ h3,
    all_real _ _ _ _ _ h4⟩

end Cert.Gcn

end
-- ==== Proof.lean ====
/-
  A graph-convolution layer on a bipartite graph with a dense adjacency block, as two kernels, against the dense
  reference.

  The reference forms the full 4096 × 4096 adjacency `[[0, adj], [adjᵀ, 0]]`, multiplies it on the left by the
  diagonal matrix of the degrees, and multiplies the result by the support `x · Wᵀ + b`. The program never forms the
  full adjacency: a first kernel computes the support and stores its second half and the transpose of its first
  half; a second kernel streams the adjacency block once in four row blocks, producing for the first half of the
  nodes `deg · (adj · support₂)` block by block and, for the second half, the accumulated product
  `support₁ᵀ · adj` transposed and scaled by the degrees at the last block.

  On the extended reals the two are one function of the five argument arrays when the arguments are finite: the
  diagonal matrix picks one row of the full adjacency (a zero times anything is zero), the zero blocks of the full
  adjacency drop half of each sum, and the degree moves out of the remaining sum — the one step that needs the
  entries to be real numbers, since multiplication does not distribute over addition at the infinities. The four
  block sums of the accumulator are one sum over the 2048 rows by associativity and commutativity alone.

  The three frame conjuncts: each kernel program, at the word level and idealized, runs through its five items with
  every buffer that outlives a kernel at named contents, the argument arrays never written; the reference is a
  straight line of host operations.
-/
import proofs.«130676_g11785390260513_cont_main3_35_7_alg».proof.Defs
import proofs.«130676_g11785390260513_cont_main3_35_7_alg».proof.Proof.Gen.Kernel
import proofs.«130676_g11785390260513_cont_main3_35_7_alg».proof.Proof.Gen.KernelIdeal
import proofs.«130676_g11785390260513_cont_main3_35_7_alg».proof.Proof.Gen.ReferenceIdeal
import proofs.«130676_g11785390260513_cont_main3_35_7_alg».proof.Proof.Gen.Pre_finite_inputs
import proofs.«130676_g11785390260513_cont_main3_35_7_alg».proof.Proof.K.Run
import proofs.«130676_g11785390260513_cont_main3_35_7_alg».proof.Proof.KI.Value
import proofs.«130676_g11785390260513_cont_main3_35_7_alg».proof.Proof.RefValue
import proofs.«130676_g11785390260513_cont_main3_35_7_alg».proof.Proof.SpecLaw
import proofs.«130676_g11785390260513_cont_main3_35_7_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Reg.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Reg.frame (F := Ideal) m ρ

/-- The reference is a line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run m ρ)

/-- On finite arguments the two programs end with the same result: the kernels' arrangement by halves is the dense
    arrangement (`Cert.Gcn.refOut_eq_kerOut`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Reg.B5 m ρ c (Proc.devRef .tc Cert.KernelIdeal.main_v8),
    Cert.KernelIdeal.Reg.run_result (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]
  funext j
  rw [ValueIdx.eq_ix2 j]
  obtain ⟨h0, h1, h2, h3, h4⟩ := Cert.Gcn.real_of_pre m hpre c
  exact (Cert.ReferenceIdeal.RefRun.out_apply _ _ _ _ _ _ _).trans
    ((Cert.Gcn.refOut_eq_kerOut _ _ _ _ _ h0 h1 h2 h3 h4 _ _).trans (Cert.KernelIdeal.Reg.result_apply m ρ c _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
